-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S300000 : Shape := ⟨1, ![300000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg19 : FVec F S128x128 .f32) (main_arg20 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg19
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg20
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_v33 : IVec S_ 1) : IVec S_ 1 :=
  let main_v34 : FVec F S128x128 .f32 := Host.absf main_arg15
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg16
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg17
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg18
  let main_cst_18 : FVec F S_ .f32 := constant S_ .f32 0x7F800000#32
  let main_v50 : FVec F S128x128 .f32 := broadcastInDim S128x128 ![] bcast_S_S128x128 main_cst_18
  fn_part3 (F := F) main_arg19 main_arg20 main_v48 main_v49 main_v50

def fn_part1 {F : FTy → Type} [FloatOps F] (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg12
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg13
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg14
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg15 main_arg16 main_arg17 main_arg18 main_arg19 main_arg20 main_v33

def fn {F : FTy → Type} [FloatOps F] (main_arg0 : FVec F S100000x128 .f32) (main_arg1 : IVec S600000 32) (main_arg2 : IVec S600000 32) (main_arg3 : IVec S600000 32) (main_arg4 : IVec S600000 32) (main_arg5 : IVec S300000 32) (main_arg6 : IVec S300000 32) (main_arg7 : IVec S300000 32) (main_arg8 : IVec S300000 32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg9
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg10
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg11
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg12 main_arg13 main_arg14 main_arg15 main_arg16 main_arg17 main_arg18 main_arg19 main_arg20 main_v13 main_v16
-- ==== Kernel.lean ====
abbrev S100000x128 : Shape := ⟨2, ![100000, 128]⟩
abbrev S600000 : Shape := ⟨1, ![600000]⟩
abbrev S300000 : Shape := ⟨1, ![300000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S50000x128 : Shape := ⟨2, ![50000, 128]⟩
abbrev S50000 : Shape := ⟨1, ![50000]⟩
abbrev S50000x1 : Shape := ⟨2, ![50000, 1]⟩
abbrev S2000x128 : Shape := ⟨2, ![2000, 128]⟩
abbrev S2000x1 : Shape := ⟨2, ![2000, 1]⟩
abbrev S1x128 : Shape := ⟨2, ![1, 128]⟩
abbrev S300000x1 : Shape := ⟨2, ![300000, 1]⟩
abbrev S300000x128 : Shape := ⟨2, ![300000, 128]⟩
abbrev S20000x128 : Shape := ⟨2, ![20000, 128]⟩
abbrev S20000 : Shape := ⟨1, ![20000]⟩
abbrev S20000x1 : Shape := ⟨2, ![20000, 1]⟩

abbrev nBuf : Space → Nat
  | .hbm => 103
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S600000, .i32⟩
  | .hbm, ⟨4, _⟩ => ⟨S600000, .i32⟩
  | .hbm, ⟨5, _⟩ => ⟨S300000, .i32⟩
  | .hbm, ⟨6, _⟩ => ⟨S300000, .i32⟩
  | .hbm, ⟨7, _⟩ => ⟨S300000, .i32⟩
  | .hbm, ⟨8, _⟩ => ⟨S300000, .i32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128x128, .f32⟩
  | .hbm, ⟨20, _⟩ => ⟨S128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S_, .f32⟩
  | .hbm, ⟨31, _⟩ => ⟨S50000x128, .f32⟩
  | .hbm, ⟨32, _⟩ => ⟨S600000x1, .i32⟩
  | .hbm, ⟨33, _⟩ => ⟨S50000x128, .f32⟩
  | .hbm, ⟨34, _⟩ => ⟨S_, .f32⟩
  | .hbm, ⟨35, _⟩ => ⟨S600000, .f32⟩
  | .hbm, ⟨36, _⟩ => ⟨S_, .f32⟩
  | .hbm, ⟨37, _⟩ => ⟨S50000, .f32⟩
  | .hbm, ⟨38, _⟩ => ⟨S600000x1, .i32⟩
  | .hbm, ⟨39, _⟩ => ⟨S50000, .f32⟩
  | .hbm, ⟨40, _⟩ => ⟨S50000x1, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S_, .f32⟩
  | .hbm, ⟨51, _⟩ => ⟨S50000x128, .f32⟩
  | .hbm, ⟨52, _⟩ => ⟨S600000x1, .i32⟩
  | .hbm, ⟨53, _⟩ => ⟨S50000x128, .f32⟩
  | .hbm, ⟨54, _⟩ => ⟨S_, .f32⟩
  | .hbm, ⟨55, _⟩ => ⟨S600000, .f32⟩
  | .hbm, ⟨56, _⟩ => ⟨S_, .f32⟩
  | .hbm, ⟨57, _⟩ => ⟨S50000, .f32⟩
  | .hbm, ⟨58, _⟩ => ⟨S600000x1, .i32⟩
  | .hbm, ⟨59, _⟩ => ⟨S50000, .f32⟩
  | .hbm, ⟨60, _⟩ => ⟨S50000x1, .f32⟩
  | .hbm, ⟨61, _⟩ => ⟨S50000x128, .f32⟩
  | .hbm, ⟨62, _⟩ => ⟨S_, .i32⟩
  | .hbm, ⟨63, _⟩ => ⟨S300000, .i32⟩
  | .hbm, ⟨64, _⟩ => ⟨S300000, .i1⟩
  | .hbm, ⟨65, _⟩ => ⟨S_, .i32⟩
  | .hbm, ⟨66, _⟩ => ⟨S300000, .i32⟩
  | .hbm, ⟨67, _⟩ => ⟨S300000, .i32⟩
  | .hbm, ⟨68, _⟩ => ⟨S300000, .i32⟩
  | .hbm, ⟨69, _⟩ => ⟨S300000x1, .i32⟩
  | .hbm, ⟨70, _⟩ => ⟨S300000x128, .f32⟩
  | .hbm, ⟨71, _⟩ => ⟨S_, .f32⟩
  | .hbm, ⟨72, _⟩ => ⟨S20000x128, .f32⟩
  | .hbm, ⟨73, _⟩ => ⟨S300000x1, .i32⟩
  | .hbm, ⟨74, _⟩ => ⟨S20000x128, .f32⟩
  | .hbm, ⟨75, _⟩ => ⟨S_, .f32⟩
  | .hbm, ⟨76, _⟩ => ⟨S300000, .f32⟩
  | .hbm, ⟨77, _⟩ => ⟨S_, .f32⟩
  | .hbm, ⟨78, _⟩ => ⟨S20000, .f32⟩
  | .hbm, ⟨79, _⟩ => ⟨S300000x1, .i32⟩
  | .hbm, ⟨80, _⟩ => ⟨S20000, .f32⟩
  | .hbm, ⟨81, _⟩ => ⟨S20000x1, .f32⟩
  | .hbm, ⟨82, _⟩ => ⟨S_, .i32⟩
  | .hbm, ⟨83, _⟩ => ⟨S300000, .i32⟩
  | .hbm, ⟨84, _⟩ => ⟨S300000, .i1⟩
  | .hbm, ⟨85, _⟩ => ⟨S_, .i32⟩
  | .hbm, ⟨86, _⟩ => ⟨S300000, .i32⟩
  | .hbm, ⟨87, _⟩ => ⟨S300000, .i32⟩
  | .hbm, ⟨88, _⟩ => ⟨S300000, .i32⟩
  | .hbm, ⟨89, _⟩ => ⟨S300000x1, .i32⟩
  | .hbm, ⟨90, _⟩ => ⟨S300000x128, .f32⟩
  | .hbm, ⟨91, _⟩ => ⟨S_, .f32⟩
  | .hbm, ⟨92, _⟩ => ⟨S20000x128, .f32⟩
  | .hbm, ⟨93, _⟩ => ⟨S300000x1, .i32⟩
  | .hbm, ⟨94, _⟩ => ⟨S20000x128, .f32⟩
  | .hbm, ⟨95, _⟩ => ⟨S_, .f32⟩
  | .hbm, ⟨96, _⟩ => ⟨S300000, .f32⟩
  | .hbm, ⟨97, _⟩ => ⟨S_, .f32⟩
  | .hbm, ⟨98, _⟩ => ⟨S20000, .f32⟩
  | .hbm, ⟨99, _⟩ => ⟨S300000x1, .i32⟩
  | .hbm, ⟨100, _⟩ => ⟨S20000, .f32⟩
  | .hbm, ⟨101, _⟩ => ⟨S20000x1, .f32⟩
  | .hbm, ⟨102, _⟩ => ⟨S20000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S128x128, .f32⟩
  | .local _ .vmem, ⟨11, _⟩ => ⟨S128x128, .f32⟩
  | .local _ .vmem, ⟨12, _⟩ => ⟨S128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x1, .f32⟩
  | .local _ .vmem, ⟨23, _⟩ => ⟨S2000x1, .f32⟩
  | .local _ .vmem, ⟨24, _⟩ => ⟨S2000x128, .f32⟩
  | .local _ .vmem, ⟨25, _⟩ => ⟨S2000x128, .f32⟩
  | .local _ .vmem, ⟨26, _⟩ => ⟨S2000x1, .f32⟩
  | .local _ .vmem, ⟨27, _⟩ => ⟨S2000x1, .f32⟩
  | .local _ .vmem, ⟨28, _⟩ => ⟨S128x128, .f32⟩
  | .local _ .vmem, ⟨29, _⟩ => ⟨S128x128, .f32⟩
  | .local _ .vmem, ⟨30, _⟩ => ⟨S128, .f32⟩
  | .local _ .vmem, ⟨31, _⟩ => ⟨S128x128, .f32⟩
  | .local _ .vmem, ⟨32, _⟩ => ⟨S128x128, .f32⟩
  | .local _ .vmem, ⟨33, _⟩ => ⟨S128, .f32⟩
  | .local _ .vmem, ⟨34, _⟩ => ⟨S2000x128, .f32⟩
  | .local _ .vmem, ⟨35, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst_1 : Ref sig .tc := ⟨.hbm, 34, rfl⟩
abbrev main_v10 : Ref sig .tc := ⟨.hbm, 35, rfl⟩
abbrev main_cst_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_3 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_6 : Ref sig .tc := ⟨.hbm, 54, rfl⟩
abbrev main_v25 : Ref sig .tc := ⟨.hbm, 55, rfl⟩
abbrev main_cst_7 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_8 : Ref sig .tc := ⟨.hbm, 62, rfl⟩
abbrev main_v31 : Ref sig .tc := ⟨.hbm, 63, rfl⟩
abbrev main_v32 : Ref sig .tc := ⟨.hbm, 64, rfl⟩
abbrev main_c_9 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_10 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_11 : Ref sig .tc := ⟨.hbm, 75, rfl⟩
abbrev main_v41 : Ref sig .tc := ⟨.hbm, 76, rfl⟩
abbrev main_cst_12 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_c_13 : Ref sig .tc := ⟨.hbm, 82, rfl⟩
abbrev main_v46 : Ref sig .tc := ⟨.hbm, 83, rfl⟩
abbrev main_v47 : Ref sig .tc := ⟨.hbm, 84, rfl⟩
abbrev main_c_14 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_15 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_16 : Ref sig .tc := ⟨.hbm, 95, rfl⟩
abbrev main_v56 : Ref sig .tc := ⟨.hbm, 96, rfl⟩
abbrev main_cst_17 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg11_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem11_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x128_S2000x128 : S2000x128.ShapeCasts S2000x128
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S300000 : S_.BroadcastsInDim S300000 (![] : Fin 0 → Fin S300000.rank)
  bcast_S300000_S300000x1_0 : S300000.BroadcastsInDim S300000x1 (![0] : Fin 1 → Fin S300000x1.rank)
  bcast_S_S20000x128 : S_.BroadcastsInDim S20000x128 (![] : Fin 0 → Fin S20000x128.rank)
  bcast_S_S20000 : S_.BroadcastsInDim S20000 (![] : Fin 0 → Fin S20000.rank)
  shapeCasts_S20000_S20000x1 : S20000.ShapeCasts S20000x1
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  gather_S50000x128_S300000x1_S300000x128_1_0_n_n_0_1_1128_wf : GatherDims.WF S50000x128 S300000x1 S300000x128 [1] [0] [] [0] [] 1 ![1, 128]
  scatter_S20000x128_S300000x1_S300000x128_1_0_0_1_wf : ScatterDims.WF S20000x128 S300000x1 S300000x128 [1] [0] [0] 1
  scatter_S20000_S300000x1_S300000_n_0_0_1_wf : ScatterDims.WF S20000 S300000x1 S300000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .f32 = 32 ∨ (Rect.block (s := S50000x128) S2000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S20000x1.size a
  hwx1_2 : ∀ i : grid1.Coords, EltTy.bits .f32 = 32 ∨ (Rect.block (s := S20000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S20000x128.size a
  hwx1_3 : ∀ i : grid1.Coords, EltTy.bits .f32 = 32 ∨ (Rect.block (s := S20000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S20000x1.size a
  hwx1_4 : ∀ i : grid1.Coords, EltTy.bits .f32 = 32 ∨ (Rect.block (s := S20000x1) S2000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S20000x128.size a
  hwx1_11 : ∀ i : grid1.Coords, EltTy.bits .f32 = 32 ∨ (Rect.block (s := S20000x128) S2000x128.size (cc1_transform_11 i) (hinb1_11 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v55) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v60) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg17) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg18) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg19) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg20) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v61) S2000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x128 : Shape := ⟨2, ![100000, 128]⟩
abbrev S600000 : Shape := ⟨1, ![600000]⟩
abbrev S300000 : Shape := ⟨1, ![300000]⟩
abbrev S128x128 : Shape := ⟨2, ![128, 128]⟩
abbrev S128 : Shape := ⟨1, ![128]⟩
abbrev S50000x128 : Shape := ⟨2, ![50000, 128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S20000x128 : Shape := ⟨2, ![20000, 128]⟩
abbrev S300000x1 : Shape := ⟨2, ![300000, 1]⟩
abbrev S300000x128 : Shape := ⟨2, ![300000, 128]⟩
abbrev S20000 : Shape := ⟨1, ![20000]⟩
abbrev S20000x1 : Shape := ⟨2, ![20000, 1]⟩

abbrev nBuf : Space → Nat
  | .hbm => 152
  | .vmem => 0
  | .smem => 0
  | _ => 0

abbrev hbmTy0_0 (i : Nat) : BufTy := match i % 128 with
  | 0 => ⟨S100000x128, .f32⟩
  | 1 => ⟨S600000, .i32⟩
  | 2 => ⟨S600000, .i32⟩
  | 3 => ⟨S600000, .i32⟩
  | 4 => ⟨S600000, .i32⟩
  | 5 => ⟨S300000, .i32⟩
  | 6 => ⟨S300000, .i32⟩
  | 7 => ⟨S300000, .i32⟩
  | 8 => ⟨S300000, .i32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S128x128, .f32⟩
  | 20 => ⟨S128, .f32⟩
  | 21 => ⟨S50000x128, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S_, .f32⟩
  | 32 => ⟨S50000x128, .f32⟩
  | 33 => ⟨S600000x1, .i32⟩
  | 34 => ⟨S50000x128, .f32⟩
  | 35 => ⟨S_, .f32⟩
  | 36 => ⟨S600000, .f32⟩
  | 37 => ⟨S_, .f32⟩
  | 38 => ⟨S50000, .f32⟩
  | 39 => ⟨S600000x1, .i32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S50000x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S_, .f32⟩
  | 63 => ⟨S50000x128, .f32⟩
  | 64 => ⟨S600000x1, .i32⟩
  | 65 => ⟨S50000x128, .f32⟩
  | 66 => ⟨S_, .f32⟩
  | 67 => ⟨S600000, .f32⟩
  | 68 => ⟨S_, .f32⟩
  | 69 => ⟨S50000, .f32⟩
  | 70 => ⟨S600000x1, .i32⟩
  | 71 => ⟨S50000, .f32⟩
  | 72 => ⟨S_, .f32⟩
  | 73 => ⟨S50000, .f32⟩
  | 74 => ⟨S50000, .f32⟩
  | 75 => ⟨S50000x1, .f32⟩
  | 76 => ⟨S50000x128, .f32⟩
  | 77 => ⟨S50000x128, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S20000x128, .f32⟩
  | 89 => ⟨S_, .i32⟩
  | 90 => ⟨S300000, .i32⟩
  | 91 => ⟨S300000, .i1⟩
  | 92 => ⟨S_, .i32⟩
  | 93 => ⟨S300000, .i32⟩
  | 94 => ⟨S300000, .i32⟩
  | 95 => ⟨S300000, .i32⟩
  | 96 => ⟨S300000x1, .i32⟩
  | 97 => ⟨S300000x128, .f32⟩
  | 98 => ⟨S_, .f32⟩
  | 99 => ⟨S20000x128, .f32⟩
  | 100 => ⟨S300000x1, .i32⟩
  | 101 => ⟨S20000x128, .f32⟩
  | 102 => ⟨S_, .f32⟩
  | 103 => ⟨S300000, .f32⟩
  | 104 => ⟨S_, .f32⟩
  | 105 => ⟨S20000, .f32⟩
  | 106 => ⟨S300000x1, .i32⟩
  | 107 => ⟨S20000, .f32⟩
  | 108 => ⟨S_, .f32⟩
  | 109 => ⟨S20000, .f32⟩
  | 110 => ⟨S20000, .f32⟩
  | 111 => ⟨S20000x1, .f32⟩
  | 112 => ⟨S20000x128, .f32⟩
  | 113 => ⟨S20000x128, .f32⟩
  | 114 => ⟨S20000x128, .f32⟩
  | 115 => ⟨S20000x128, .f32⟩
  | 116 => ⟨S20000x128, .f32⟩
  | 117 => ⟨S1x128, .f32⟩
  | 118 => ⟨S20000x128, .f32⟩
  | 119 => ⟨S20000x128, .f32⟩
  | 120 => ⟨S_, .i32⟩
  | 121 => ⟨S300000, .i32⟩
  | 122 => ⟨S300000, .i1⟩
  | 123 => ⟨S_, .i32⟩
  | 124 => ⟨S300000, .i32⟩
  | 125 => ⟨S300000, .i32⟩
  | 126 => ⟨S300000, .i32⟩
  | 127 => ⟨S300000x1, .i32⟩
  | _ => ⟨S100000x128, .f32⟩

abbrev hbmTy0_1 (i : Nat) : BufTy := match i % 128 with
  | 0 => ⟨S300000x128, .f32⟩
  | 1 => ⟨S_, .f32⟩
  | 2 => ⟨S20000x128, .f32⟩
  | 3 => ⟨S300000x1, .i32⟩
  | 4 => ⟨S20000x128, .f32⟩
  | 5 => ⟨S_, .f32⟩
  | 6 => ⟨S300000, .f32⟩
  | 7 => ⟨S_, .f32⟩
  | 8 => ⟨S20000, .f32⟩
  | 9 => ⟨S300000x1, .i32⟩
  | 10 => ⟨S20000, .f32⟩
  | 11 => ⟨S_, .f32⟩
  | 12 => ⟨S20000, .f32⟩
  | 13 => ⟨S20000, .f32⟩
  | 14 => ⟨S20000x1, .f32⟩
  | 15 => ⟨S20000x128, .f32⟩
  | 16 => ⟨S20000x128, .f32⟩
  | 17 => ⟨S20000x128, .f32⟩
  | 18 => ⟨S20000x128, .f32⟩
  | 19 => ⟨S20000x128, .f32⟩
  | 20 => ⟨S1x128, .f32⟩
  | 21 => ⟨S20000x128, .f32⟩
  | 22 => ⟨S20000x128, .f32⟩
  | 23 => ⟨S20000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_cst_2 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_3 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_4 : Ref sig .tc := ⟨.hbm, 53, rfl⟩
abbrev main_v26 : Ref sig .tc := ⟨.hbm, 54, rfl⟩
abbrev main_v27 : Ref sig .tc := ⟨.hbm, 55, rfl⟩
abbrev main_c_5 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_6 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_7 : Ref sig .tc := ⟨.hbm, 66, rfl⟩
abbrev main_v36 : Ref sig .tc := ⟨.hbm, 67, rfl⟩
abbrev main_cst_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_9 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_call0_cst : Ref sig .tc := ⟨.hbm, 85, rfl⟩
abbrev main_call0_v0 : Ref sig .tc := ⟨.hbm, 86, rfl⟩
abbrev main_v52 : Ref sig .tc := ⟨.hbm, 87, rfl⟩
abbrev main_v53 : Ref sig .tc := ⟨.hbm, 88, rfl⟩
abbrev main_c_10 : Ref sig .tc := ⟨.hbm, 89, rfl⟩
abbrev main_v54 : Ref sig .tc := ⟨.hbm, 90, rfl⟩
abbrev main_v55 : Ref sig .tc := ⟨.hbm, 91, rfl⟩
abbrev main_c_11 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_12 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_13 : Ref sig .tc := ⟨.hbm, 102, rfl⟩
abbrev main_v64 : Ref sig .tc := ⟨.hbm, 103, rfl⟩
abbrev main_cst_14 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_15 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_c_16 : Ref sig .tc := ⟨.hbm, 120, rfl⟩
abbrev main_v79 : Ref sig .tc := ⟨.hbm, 121, rfl⟩
abbrev main_v80 : Ref sig .tc := ⟨.hbm, 122, rfl⟩
abbrev main_c_17 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_18 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_19 : Ref sig .tc := ⟨.hbm, 133, rfl⟩
abbrev main_v89 : Ref sig .tc := ⟨.hbm, 134, rfl⟩
abbrev main_cst_20 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_21 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩

abbrev nD : Nat := 1
abbrev τ : Topo := Topo.v7x

variable {F : FTy → Type} [FloatOps F]

class Facts₀ : Prop where
  slices_S100000x128_S50000x128_0_0 : S100000x128.Slices ![0, 0] S50000x128
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S50000x128_S20000x128_0_0 : S50000x128.Slices ![0, 0] S20000x128
  bcast_S_S300000 : S_.BroadcastsInDim S300000 (![] : Fin 0 → Fin S300000.rank)
  bcast_S300000_S300000x1_0 : S300000.BroadcastsInDim S300000x1 (![0] : Fin 1 → Fin S300000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000x128_S300000x1_S300000x128_1_0_n_n_0_1_1128_wf : GatherDims.WF S50000x128 S300000x1 S300000x128 [1] [0] [] [0] [] 1 ![1, 128]
  scatter_S20000x128_S300000x1_S300000x128_1_0_0_1_wf : ScatterDims.WF S20000x128 S300000x1 S300000x128 [1] [0] [0] 1
  scatter_S20000_S300000x1_S300000_n_0_0_1_wf : ScatterDims.WF S20000 S300000x1 S300000 [] [0] [0] 1
  dot_S20000x128_S128x128_S20000x128_1_0_0_1_n_n_wf : DotDims.WF S20000x128 S128x128 S20000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.KernelRun.lean ====
/-
  The kernel's run with its result named.

  The program is four segments: host operations, the first layer's grid, host operations, the second layer's grid.
  Every weakly fair execution ends with every unscoped buffer at the contents the four segments leave, folded from
  the launch memory; read at the result buffer, that is what the second grid's write-backs leave in its output
  array, and read at an argument it is the launch contents.
-/
import proofs.«139477_j81217831568087_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the last segment the result buffer holds the second grid's output array as its write-backs leave it. -/
theorem W4_result (c : Dev nD) :
    W4 m ρ c (Proc.devRef .tc main_v61) = (dat1 (V3 m ρ) c).arrAt 11 cfg1.N := W4_arr m ρ c 11

/-- Before the second grid, its first operand (the first layer's output) is what the first grid's write-backs left:
    the host operations between the two grids do not write it. -/
theorem W2_layer1 (c : Dev nD) :
    W2 m ρ c (Proc.devRef .tc main_v30) = (dat0 (V1 m ρ) c).arrAt 11 cfg0.N := W2_arr m ρ c 11

set_option backward.isDefEq.respectTransparency.types false in
/-- Every weakly fair execution of the program terminates, nothing faulting, with the result buffer at the contents
    the segments leave there and every argument as launched. -/
theorem run_named : θ_run defs (onTc (τ := τ) (main (F := F))) ⟨m, fun _ => 0, ρ⟩ (fun r => ∀ c : Dev nD,
      r.2.mem ((c.tc : Thread nD τ).loc main_v61) = W4 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v61 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c),
       (h c _ (mem_uc main_arg20 (by decide))).trans (W4_main_arg20 m ρ c)⟩)

end Cert.KernelIdeal.Hand

end
-- ==== Proof.SageEntry.lean ====
/-
  One output entry of a mean-aggregation layer over two edge relations.

  For a destination node with feature row x, and for each relation r in {0, 1} the sum s_r of its in-neighbours'
  feature rows and its in-degree d_r, the layer's entry j is

      x · Ws_0[:, j] + (s_0 / max(d_0, 1)) · Wn_0[:, j] + b_0[j]
    + x · Ws_1[:, j] + (s_1 / max(d_1, 1)) · Wn_1[:, j] + b_1[j]

  over the extended reals, every product a sum over the 128 features. The six terms can be added left to right, one
  after the other, or relation by relation and then the two relations together: addition on the extended reals is
  commutative and associative (also at the infinities), so the two groupings are the same number.
  The words of 1 and 0 are kept as words: the same word on both sides is never evaluated.
-/
import Idealize.ShloMosaic.PureOps.Ideal
import Idealize.ShloMosaic.Lib.ValueIdx
import Mathlib.Tactic.Abel

noncomputable section

namespace Cert.Sage

open Idealize.ShloMosaic Idealize.ShloMosaic.ValueIdx

/-- The extended real the f32 word of 1.0 denotes. -/
abbrev one : EReal := Ideal.ofBits .f32 0x3F800000#32
/-- The extended real the f32 word of 0.0 denotes. -/
abbrev zero : EReal := Ideal.ofBits .f32 0x00000000#32

/-- The mean of the neighbours' rows: the sum divided by the degree, a degree below one counted as one. -/
def mean (s : Fin 128 → EReal) (d : EReal) (k : Fin 128) : EReal := Ideal.div (s k) (max d one)

/-- A row times column j of a 128 × 128 matrix. -/
def lin (x : Fin 128 → EReal) (W : Fin 128 → Fin 128 → EReal) (j : Fin 128) : EReal := ∑ k : Fin 128, x k * W k j

/-- The entry with its six terms added one after the other, left to right. -/
def entrySeq (x s0 s1 : Fin 128 → EReal) (d0 d1 : EReal) (Ws0 Wn0 : Fin 128 → Fin 128 → EReal) (b0 : Fin 128 → EReal)
    (Ws1 Wn1 : Fin 128 → Fin 128 → EReal) (b1 : Fin 128 → EReal) (j : Fin 128) : EReal :=
  ((((lin x Ws0 j + lin (mean s0 d0) Wn0 j) + b0 j) + lin x Ws1 j) + lin (mean s1 d1) Wn1 j) + b1 j

/-- The entry with each relation's three terms added first, then the two relations. -/
def entryRel (x s0 s1 : Fin 128 → EReal) (d0 d1 : EReal) (Ws0 Wn0 : Fin 128 → Fin 128 → EReal) (b0 : Fin 128 → EReal)
    (Ws1 Wn1 : Fin 128 → Fin 128 → EReal) (b1 : Fin 128 → EReal) (j : Fin 128) : EReal :=
  ((lin x Ws0 j + lin (mean s0 d0) Wn0 j) + b0 j) + ((lin x Ws1 j + lin (mean s1 d1) Wn1 j) + b1 j)

/-- The two groupings are one number: only associativity of addition is used. -/
theorem entrySeq_eq_entryRel (x s0 s1 : Fin 128 → EReal) (d0 d1 : EReal) (Ws0 Wn0 : Fin 128 → Fin 128 → EReal)
    (b0 : Fin 128 → EReal) (Ws1 Wn1 : Fin 128 → Fin 128 → EReal) (b1 : Fin 128 → EReal) (j : Fin 128) :
    entrySeq x s0 s1 d0 d1 Ws0 Wn0 b0 Ws1 Wn1 b1 j = entryRel x s0 s1 d0 d1 Ws0 Wn0 b0 Ws1 Wn1 b1 j := by
  unfold entrySeq entryRel
  simp only [add_assoc]

/-! ## The entry over whole arrays

  The layer's output has n rows; the destination nodes are the first n of the N nodes whose features X holds, so row p
  of the output reads row p of X. S0, S1 hold the neighbour sums (n rows), D0, D1 the degrees (one per row), and the
  weights and biases are read by coordinates. -/

/-- Entry (p, q) of the layer, its terms added left to right. -/
def layerAt (n N : ℕ) (hnN : n ≤ N) (X : (⟨2, ![N, 128]⟩ : Shape).Idx → EReal)
    (S0 S1 : (⟨2, ![n, 128]⟩ : Shape).Idx → EReal) (D0 D1 : Fin n → EReal)
    (Ws0 Wn0 : (⟨2, ![128, 128]⟩ : Shape).Idx → EReal) (b0 : (⟨1, ![128]⟩ : Shape).Idx → EReal)
    (Ws1 Wn1 : (⟨2, ![128, 128]⟩ : Shape).Idx → EReal) (b1 : (⟨1, ![128]⟩ : Shape).Idx → EReal)
    (p : Fin n) (q : Fin 128) : EReal :=
  entrySeq (fun k => X (ix2 (⟨p.val, lt_of_lt_of_le p.isLt hnN⟩ : Fin N) k)) (fun k => S0 (ix2 p k)) (fun k => S1 (ix2 p k))
    (D0 p) (D1 p) (fun k j => Ws0 (ix2 k j)) (fun k j => Wn0 (ix2 k j)) (fun j => b0 (ix1 j))
    (fun k j => Ws1 (ix2 k j)) (fun k j => Wn1 (ix2 k j)) (fun j => b1 (ix1 j)) q

/-- Entry (p, q) of the layer, relation by relation. -/
def layerAtRel (n N : ℕ) (hnN : n ≤ N) (X : (⟨2, ![N, 128]⟩ : Shape).Idx → EReal)
    (S0 S1 : (⟨2, ![n, 128]⟩ : Shape).Idx → EReal) (D0 D1 : Fin n → EReal)
    (Ws0 Wn0 : (⟨2, ![128, 128]⟩ : Shape).Idx → EReal) (b0 : (⟨1, ![128]⟩ : Shape).Idx → EReal)
    (Ws1 Wn1 : (⟨2, ![128, 128]⟩ : Shape).Idx → EReal) (b1 : (⟨1, ![128]⟩ : Shape).Idx → EReal)
    (p : Fin n) (q : Fin 128) : EReal :=
  entryRel (fun k => X (ix2 (⟨p.val, lt_of_lt_of_le p.isLt hnN⟩ : Fin N) k)) (fun k => S0 (ix2 p k)) (fun k => S1 (ix2 p k))
    (D0 p) (D1 p) (fun k j => Ws0 (ix2 k j)) (fun k j => Wn0 (ix2 k j)) (fun j => b0 (ix1 j))
    (fun k j => Ws1 (ix2 k j)) (fun k j => Wn1 (ix2 k j)) (fun j => b1 (ix1 j)) q

theorem layerAt_eq_layerAtRel (n N : ℕ) (hnN : n ≤ N) (X : (⟨2, ![N, 128]⟩ : Shape).Idx → EReal)
    (S0 S1 : (⟨2, ![n, 128]⟩ : Shape).Idx → EReal) (D0 D1 : Fin n → EReal)
    (Ws0 Wn0 : (⟨2, ![128, 128]⟩ : Shape).Idx → EReal) (b0 : (⟨1, ![128]⟩ : Shape).Idx → EReal)
    (Ws1 Wn1 : (⟨2, ![128, 128]⟩ : Shape).Idx → EReal) (b1 : (⟨1, ![128]⟩ : Shape).Idx → EReal)
    (p : Fin n) (q : Fin 128) :
    layerAt n N hnN X S0 S1 D0 D1 Ws0 Wn0 b0 Ws1 Wn1 b1 p q = layerAtRel n N hnN X S0 S1 D0 D1 Ws0 Wn0 b0 Ws1 Wn1 b1 p q :=
  entrySeq_eq_entryRel _ _ _ _ _ _ _ _ _ _ _ _

end Cert.Sage

end
-- ==== Proof.HostStretches.lean ====
/-
  What the host operations before each grid leave in the arrays the grid reads.

  Before the first grid the program gathers, for each of the two edge relations, the source nodes' feature rows and
  adds them into the destination nodes' rows (the neighbour sums), and adds a one per edge into the destination's
  slot (the degrees, reshaped to a column). Before the second grid it does the same with the first layer's output
  as the features. The reference program applies the very same operations to the same operands, so each array is
  the reference's own stage applied to the launch contents: the gather and the scatter-add are never opened.
  Arguments, and the first layer's output across the second stretch, are not written by these operations.
-/
import proofs.«139477_j81217831568087_2_alg».proof.Proof.Gen.KernelIdeal.Frame
import proofs.«139477_j81217831568087_2_alg».proof.Proof.Gen.ReferenceIdeal.Read

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## The second layer's neighbour sums as a function of the first layer's output -/

/-- Relation 0 of the second layer: rows of `h` gathered at the sources, added into the destinations' rows. -/
def sums2a (h : (⟨Cert.ReferenceIdeal.S50000x128, .f32⟩ : BufTy).Contents (Elt F)) (src dst : (⟨Cert.ReferenceIdeal.S300000, .i32⟩ : BufTy).Contents (Elt F)) : (⟨Cert.ReferenceIdeal.S20000x128, .f32⟩ : BufTy).Contents (Elt F) :=
  Host.scatterAdd Cert.ReferenceIdeal.scatter_S20000x128_S300000x1_S300000x128_1_0_0_1 (Cert.ReferenceIdeal.Read.val_main_v61 (F := F))
    (Cert.ReferenceIdeal.Read.val_main_v62 (F := F) dst)
    (Host.gather Cert.ReferenceIdeal.gather_S50000x128_S300000x1_S300000x128_1_0_n_n_0_1_1128 h (Cert.ReferenceIdeal.Read.val_main_v59 (F := F) src))

/-- Relation 1 of the second layer. -/
def sums2b (h : (⟨Cert.ReferenceIdeal.S50000x128, .f32⟩ : BufTy).Contents (Elt F)) (src dst : (⟨Cert.ReferenceIdeal.S300000, .i32⟩ : BufTy).Contents (Elt F)) : (⟨Cert.ReferenceIdeal.S20000x128, .f32⟩ : BufTy).Contents (Elt F) :=
  Host.scatterAdd Cert.ReferenceIdeal.scatter_S20000x128_S300000x1_S300000x128_1_0_0_1 (Cert.ReferenceIdeal.Read.val_main_v86 (F := F))
    (Cert.ReferenceIdeal.Read.val_main_v87 (F := F) dst)
    (Host.gather Cert.ReferenceIdeal.gather_S50000x128_S300000x1_S300000x128_1_0_n_n_0_1_1128 h (Cert.ReferenceIdeal.Read.val_main_v84 (F := F) src))

section Stretches

variable (W : Valuation τ sig (Elt F))

/-! ## The stretch before the first grid -/

theorem stretch0_arg0 : StableHlo.after hostOps0 W (Proc.devRef .tc main_arg0) = W (Proc.devRef .tc main_arg0) := by
  after_results
theorem stretch0_arg9 : StableHlo.after hostOps0 W (Proc.devRef .tc main_arg9) = W (Proc.devRef .tc main_arg9) := by
  after_results
theorem stretch0_arg10 : StableHlo.after hostOps0 W (Proc.devRef .tc main_arg10) = W (Proc.devRef .tc main_arg10) := by
  after_results
theorem stretch0_arg11 : StableHlo.after hostOps0 W (Proc.devRef .tc main_arg11) = W (Proc.devRef .tc main_arg11) := by
  after_results
theorem stretch0_arg12 : StableHlo.after hostOps0 W (Proc.devRef .tc main_arg12) = W (Proc.devRef .tc main_arg12) := by
  after_results
theorem stretch0_arg13 : StableHlo.after hostOps0 W (Proc.devRef .tc main_arg13) = W (Proc.devRef .tc main_arg13) := by
  after_results
theorem stretch0_arg14 : StableHlo.after hostOps0 W (Proc.devRef .tc main_arg14) = W (Proc.devRef .tc main_arg14) := by
  after_results

theorem stretch0_sum0 : StableHlo.after hostOps0 W (Proc.devRef .tc main_v9)
    = Cert.ReferenceIdeal.Read.val_main_v10 (F := F) (W (Proc.devRef .tc main_arg0)) (W (Proc.devRef .tc main_arg1)) (W (Proc.devRef .tc main_arg2)) := by
  after_results_simp <;> rfl

theorem stretch0_deg0 : StableHlo.after hostOps0 W (Proc.devRef .tc main_v14)
    = shapeCast S50000x1 (Cert.ReferenceIdeal.Read.val_main_v14 (F := F) (W (Proc.devRef .tc main_arg2))) shapeCasts_S50000_S50000x1 := by
  after_results_simp <;> rfl

theorem stretch0_sum1 : StableHlo.after hostOps0 W (Proc.devRef .tc main_v24)
    = Cert.ReferenceIdeal.Read.val_main_v35 (F := F) (W (Proc.devRef .tc main_arg0)) (W (Proc.devRef .tc main_arg3)) (W (Proc.devRef .tc main_arg4)) := by
  after_results_simp <;> rfl

theorem stretch0_deg1 : StableHlo.after hostOps0 W (Proc.devRef .tc main_v29)
    = shapeCast S50000x1 (Cert.ReferenceIdeal.Read.val_main_v39 (F := F) (W (Proc.devRef .tc main_arg4))) shapeCasts_S50000_S50000x1 := by
  after_results_simp <;> rfl

/-! ## The stretch between the two grids -/

theorem stretch1_arg5 : StableHlo.after hostOps1 W (Proc.devRef .tc main_arg5) = W (Proc.devRef .tc main_arg5) := by
  after_results
theorem stretch1_arg6 : StableHlo.after hostOps1 W (Proc.devRef .tc main_arg6) = W (Proc.devRef .tc main_arg6) := by
  after_results
theorem stretch1_arg7 : StableHlo.after hostOps1 W (Proc.devRef .tc main_arg7) = W (Proc.devRef .tc main_arg7) := by
  after_results
theorem stretch1_arg8 : StableHlo.after hostOps1 W (Proc.devRef .tc main_arg8) = W (Proc.devRef .tc main_arg8) := by
  after_results
theorem stretch1_arg15 : StableHlo.after hostOps1 W (Proc.devRef .tc main_arg15) = W (Proc.devRef .tc main_arg15) := by
  after_results
theorem stretch1_arg16 : StableHlo.after hostOps1 W (Proc.devRef .tc main_arg16) = W (Proc.devRef .tc main_arg16) := by
  after_results
theorem stretch1_arg17 : StableHlo.after hostOps1 W (Proc.devRef .tc main_arg17) = W (Proc.devRef .tc main_arg17) := by
  after_results
theorem stretch1_arg18 : StableHlo.after hostOps1 W (Proc.devRef .tc main_arg18) = W (Proc.devRef .tc main_arg18) := by
  after_results
theorem stretch1_arg19 : StableHlo.after hostOps1 W (Proc.devRef .tc main_arg19) = W (Proc.devRef .tc main_arg19) := by
  after_results
theorem stretch1_arg20 : StableHlo.after hostOps1 W (Proc.devRef .tc main_arg20) = W (Proc.devRef .tc main_arg20) := by
  after_results
theorem stretch1_layer1 : StableHlo.after hostOps1 W (Proc.devRef .tc main_v30) = W (Proc.devRef .tc main_v30) := by
  after_results

theorem stretch1_sum0 : StableHlo.after hostOps1 W (Proc.devRef .tc main_v40)
    = sums2a (F := F) (W (Proc.devRef .tc main_v30)) (W (Proc.devRef .tc main_arg5)) (W (Proc.devRef .tc main_arg6)) := by
  after_results_simp <;> rfl

theorem stretch1_deg0 : StableHlo.after hostOps1 W (Proc.devRef .tc main_v45)
    = shapeCast S20000x1 (Cert.ReferenceIdeal.Read.val_main_v67 (F := F) (W (Proc.devRef .tc main_arg6))) shapeCasts_S20000_S20000x1 := by
  after_results_simp <;> rfl

theorem stretch1_sum1 : StableHlo.after hostOps1 W (Proc.devRef .tc main_v55)
    = sums2b (F := F) (W (Proc.devRef .tc main_v30)) (W (Proc.devRef .tc main_arg7)) (W (Proc.devRef .tc main_arg8)) := by
  after_results_simp <;> rfl

theorem stretch1_deg1 : StableHlo.after hostOps1 W (Proc.devRef .tc main_v60)
    = shapeCast S20000x1 (Cert.ReferenceIdeal.Read.val_main_v92 (F := F) (W (Proc.devRef .tc main_arg8))) shapeCasts_S20000_S20000x1 := by
  after_results_simp <;> rfl

end Stretches

/-! ## The reference's second-layer sums are the same functions of its first layer's output -/

theorem ref_sums2a (x0 : (⟨Cert.ReferenceIdeal.S100000x128, .f32⟩ : BufTy).Contents (Elt F)) (x1 x2 x3 x4 : (⟨Cert.ReferenceIdeal.S600000, .i32⟩ : BufTy).Contents (Elt F)) (x5 x6 : (⟨Cert.ReferenceIdeal.S300000, .i32⟩ : BufTy).Contents (Elt F)) (x9 x10 : (⟨Cert.ReferenceIdeal.S128x128, .f32⟩ : BufTy).Contents (Elt F)) (x11 : (⟨Cert.ReferenceIdeal.S128, .f32⟩ : BufTy).Contents (Elt F)) (x12 x13 : (⟨Cert.ReferenceIdeal.S128x128, .f32⟩ : BufTy).Contents (Elt F)) (x14 : (⟨Cert.ReferenceIdeal.S128, .f32⟩ : BufTy).Contents (Elt F)) :
    Cert.ReferenceIdeal.Read.val_main_v63 (F := F) x0 x1 x2 x3 x4 x5 x6 x9 x10 x11 x12 x13 x14
      = sums2a (F := F) (Cert.ReferenceIdeal.Read.val_main_v52 (F := F) x0 x1 x2 x3 x4 x9 x10 x11 x12 x13 x14) x5 x6 := rfl

theorem ref_sums2b (x0 : (⟨Cert.ReferenceIdeal.S100000x128, .f32⟩ : BufTy).Contents (Elt F)) (x1 x2 x3 x4 : (⟨Cert.ReferenceIdeal.S600000, .i32⟩ : BufTy).Contents (Elt F)) (x7 x8 : (⟨Cert.ReferenceIdeal.S300000, .i32⟩ : BufTy).Contents (Elt F)) (x9 x10 : (⟨Cert.ReferenceIdeal.S128x128, .f32⟩ : BufTy).Contents (Elt F)) (x11 : (⟨Cert.ReferenceIdeal.S128, .f32⟩ : BufTy).Contents (Elt F)) (x12 x13 : (⟨Cert.ReferenceIdeal.S128x128, .f32⟩ : BufTy).Contents (Elt F)) (x14 : (⟨Cert.ReferenceIdeal.S128, .f32⟩ : BufTy).Contents (Elt F)) :
    Cert.ReferenceIdeal.Read.val_main_v88 (F := F) x0 x1 x2 x3 x4 x7 x8 x9 x10 x11 x12 x13 x14
      = sums2b (F := F) (Cert.ReferenceIdeal.Read.val_main_v52 (F := F) x0 x1 x2 x3 x4 x9 x10 x11 x12 x13 x14) x7 x8 := rfl

end Cert.KernelIdeal.Hand

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.KernelBlockOps.lean ====
/-
  The operations of one 2000-row block of the mean-aggregation layer, read at an entry over the extended reals.

  Both layers compute the same three things on a block of 2000 rows. A block times a 128 x 128 matrix, accumulated
  into zero: its operands are first narrowed to bf16, which on the extended reals is the identity, so the entry (p, q)
  is the row p of the block times the column q of the matrix. The neighbour sums divided by the degree column, the
  degree first clamped below at one and then spread along the row: at (r, k) this is the mean of row r at feature k.
  A bias vector read as a row [1, 128] and spread down the 2000 rows: at (r, q) it is the vector's entry q.
-/
import proofs.«139477_j81217831568087_2_alg».proof.Proof.Gen.KernelIdeal.Skeleton
import proofs.«139477_j81217831568087_2_alg».proof.Proof.SageEntry
import proofs.«139477_j81217831568087_2_alg».proof.Proof.LibDotRows
import proofs.«139477_j81217831568087_2_alg».proof.Proof.LibColumns
import proofs.«139477_j81217831568087_2_alg».proof.Proof.LibRowCast
import proofs.«139477_j81217831568087_2_alg».proof.Proof.LibRowBroadcast
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The offsets (0, 0) are the zero offsets. -/
theorem zero_off2 : (![0, 0] : Fin 2 → Nat) = fun _ => 0 := funext fun a => by fin_cases a <;> rfl
/-- The offset (0) is the zero offset. -/
theorem zero_off1 : (![0] : Fin 1 → Nat) = fun _ => 0 := funext fun a => by fin_cases a; rfl

/-- A block times a matrix, into the zero accumulator, at (p, q): the sum over k of block (p, k) times matrix (k, q). -/
theorem block_matmul_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  dot_rows dot_S2000x128_S128x128_S2000x128_1_0_0_1_n_n S2000x128 S128x128 128

/-- The neighbour sums over the clamped degree column, at (r, k): the mean of row r at feature k. -/
theorem block_mean_apply (s : FVec Ideal S2000x128 .f32) (d : FVec Ideal S2000x1 .f32) (r : Fin 2000) (k : Fin 128) :
    divf (shapeCast S2000x128 s shapeCasts_S2000x128_S2000x128)
        (broadcastTo S2000x128 (maximumf (shapeCast S2000x1 d shapeCasts_S2000x1_S2000x1)
          (broadcast S2000x1 (Scalar.ofBits (F := Ideal) .f32 0x3F800000#32))) broadcasts_S2000x1_S2000x128) (ix2 r k)
      = Cert.Sage.mean (fun k => s (ix2 r k)) (d (ix2 r (0 : Fin 1))) k := by
  rw [divf_apply, shapeCast_self, Cert.Columns.broadcastTo_a1_ab_apply, maximumf_apply, shapeCast_self]
  rfl

/-- A bias vector read as a row and spread down the 2000 rows, at (r, q): its entry q. -/
theorem block_bias_apply (b : FVec Ideal S128 .f32) (r : Fin 2000) (q : Fin 128) :
    broadcastTo S2000x128 (shapeCast S1x128 b shapeCasts_S128_S1x128) broadcasts_S1x128_S2000x128 (ix2 r q) = b (ix1 q) := by
  rw [Cert.RowBroadcast.broadcastTo_1b_ab_apply, Cert.RowCast.shapeCast_row_apply]

end Cert.KernelIdeal.Hand

end
-- ==== Proof.KernelLayer1.lean ====
/-
  The first layer's array, entry by entry.

  The first call walks 25 grid points. Point t reads rows 2000 t .. 2000 t + 1999 of the feature array (of whose
  100000 rows only the first 50000 are visited), of the two relations' neighbour sums and of their degree columns,
  reads the six weight and bias arrays whole, and writes rows 2000 t .. 2000 t + 1999 of the 50000 x 128 output. What
  it writes at row r and column q of its block is the layer's entry: the six terms added left to right, then the
  maximum with zero. The 25 blocks tile the output, so the output array holds, at every (p, q), that entry at row p.
  All of this for any contents of the buffers when the call is entered; the arrays the call reads are named by
  hypotheses.
-/
import proofs.«139477_j81217831568087_2_alg».proof.Proof.Gen.KernelIdeal.Frame
import proofs.«139477_j81217831568087_2_alg».proof.Proof.KernelBlockOps

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! ## The stored value at an entry of a block -/

/-- The second relation's mean block at (r, k). -/
theorem mean1_block0 (d : Vec Ideal S2000x1 .f32) (s : Vec Ideal S2000x128 .f32) (r : Fin 2000) (k : Fin 128) :
    k0_pay3 d s (ix2 r k) = Cert.Sage.mean (fun k => s (ix2 r k)) (d (ix2 r (0 : Fin 1))) k := by
  unfold k0_pay3
  exact block_mean_apply s d r k

/-- The first relation's two products, added, at (r, q). -/
theorem rel0_block0 (x : Vec Ideal S2000x128 .f32) (d : Vec Ideal S2000x1 .f32) (s : Vec Ideal S2000x128 .f32)
    (Ws Wn : Vec Ideal S128x128 .f32) (r : Fin 2000) (q : Fin 128) :
    k0_pay6 x d s Ws Wn (ix2 r q)
      = Cert.Sage.lin (fun k => x (ix2 r k)) (fun k j => Ws (ix2 k j)) q
        + Cert.Sage.lin (Cert.Sage.mean (fun k => s (ix2 r k)) (d (ix2 r (0 : Fin 1)))) (fun k j => Wn (ix2 k j)) q := by
  unfold k0_pay6 k0_pay2
  show matmul dot_S2000x128_S128x128_S2000x128_1_0_0_1_n_n none _ _ _ (ix2 r q) + matmul dot_S2000x128_S128x128_S2000x128_1_0_0_1_n_n none _ _ _ (ix2 r q) = _
  rw [block_matmul_apply, block_matmul_apply]
  unfold Cert.Sage.lin
  congr 1
  exact Finset.sum_congr rfl fun k _ => congrArg (· * _) (block_mean_apply s d r k)

/-- The stored value at (r, q) of a block: the six terms added left to right, then the maximum with zero. -/
theorem stored0 (x0 x1 : Vec Ideal S2000x128 .f32) (x2 : Vec Ideal S2000x1 .f32) (x3 : Vec Ideal S2000x128 .f32)
    (x4 : Vec Ideal S2000x1 .f32) (x5 x6 : Vec Ideal S128x128 .f32) (x7 : Vec Ideal S128 .f32)
    (x8 x9 : Vec Ideal S128x128 .f32) (x10 : Vec Ideal S128 .f32) (r : Fin 2000) (q : Fin 128) :
    k0_pay1 (k0_pay2 x0) (k0_pay3 x4 x3) (k0_pay4 x8) (k0_pay5 x9) x10 (k0_pay6 x0 x2 x1 x5 x6) (k0_pay7 x7) (ix2 r q)
      = max (Cert.Sage.entrySeq (fun k => x0 (ix2 r k)) (fun k => x1 (ix2 r k)) (fun k => x3 (ix2 r k))
              (x2 (ix2 r (0 : Fin 1))) (x4 (ix2 r (0 : Fin 1)))
              (fun k j => x5 (ix2 k j)) (fun k j => x6 (ix2 k j)) (fun j => x7 (ix1 j))
              (fun k j => x8 (ix2 k j)) (fun k j => x9 (ix2 k j)) (fun j => x10 (ix1 j)) q) Cert.Sage.zero := by
  unfold k0_pay1
  show max (((((k0_pay6 x0 x2 x1 x5 x6 (ix2 r q) + k0_pay7 x7 (ix2 r q))
          + matmul dot_S2000x128_S128x128_S2000x128_1_0_0_1_n_n none (k0_pay2 x0) (k0_pay4 x8) (constant (F := Ideal) S2000x128 .f32 0x00000000#32) (ix2 r q))
          + matmul dot_S2000x128_S128x128_S2000x128_1_0_0_1_n_n none (k0_pay3 x4 x3) (k0_pay5 x9) (constant (F := Ideal) S2000x128 .f32 0x00000000#32) (ix2 r q))
          + broadcastTo S2000x128 (shapeCast S1x128 x10 shapeCasts_S128_S1x128) broadcasts_S1x128_S2000x128 (ix2 r q))) Cert.Sage.zero = _
  rw [rel0_block0, block_matmul_apply, block_matmul_apply, block_bias_apply]
  unfold k0_pay7
  rw [block_bias_apply]
  unfold Cert.Sage.entrySeq Cert.Sage.lin
  congr 3
  exact Finset.sum_congr rfl fun k _ => congrArg (· * _) (mean1_block0 x4 x3 r k)

variable (V : (c : Dev nD) → (b : Ref sig .tc) → Buf (Elt Ideal) ((c : Thread nD τ).loc b))

/-! ## Where each window's block sits: grid point t takes block row t of the row-blocked arrays and the one block of the
    weights and biases -/

theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ win0_7.index t (0 : Fin 1) = 0
    ∧ (win0_8.index t (0 : Fin 2) = 0 ∧ win0_8.index t (1 : Fin 2) = 0)
    ∧ (win0_9.index t (0 : Fin 2) = 0 ∧ win0_9.index t (1 : Fin 2) = 0)
    ∧ win0_10.index t (0 : Fin 1) = 0
    ∧ (win0_11.index t (0 : Fin 2) = t.val ∧ win0_11.index t (1 : Fin 2) = 0) :=
  (by decide +kernel : ∀ t : Fin grid0.N, _)

/-! ## The input blocks as rows of their arrays -/

/-- Row r of the feature block at point t is row 2000 t + r of the feature array. -/
theorem blk0_0 (c : Dev nD) (X : FVec Ideal S100000x128 .f32) (hX : V c main_arg0 = X) (t : Fin cfg0.N)
    (r : Fin 2000) (k : Fin 128) (R : Fin 100000) (hR : R.val = 2000 * t.val + r.val) :
    (iblk0 V c 0 t : Vec Ideal S2000x128 .f32) (ix2 r k) = X (ix2 R k) := by
  obtain ⟨⟨e0, e1⟩, -⟩ := idx0 t
  unfold iblk0
  rw [View.read_apply]
  show V c main_arg0 _ = _
  rw [hX]
  congr 1
  funext a
  apply Fin.ext
  match a with
  | ⟨0, _⟩ => show win0_0.index t (0 : Fin 2) * 2000 + 1 * r.val = R.val; rw [e0, hR]; omega
  | ⟨1, _⟩ => show win0_0.index t (1 : Fin 2) * 128 + 1 * k.val = k.val; rw [e1]; omega

/-- The same for the first relation's neighbour sums. -/
theorem blk0_1 (c : Dev nD) (S : FVec Ideal S50000x128 .f32) (hS : V c main_v9 = S) (t : Fin cfg0.N)
    (r : Fin 2000) (k : Fin 128) (R : Fin 50000) (hR : R.val = 2000 * t.val + r.val) :
    (iblk0 V c 1 t : Vec Ideal S2000x128 .f32) (ix2 r k) = S (ix2 R k) := by
  obtain ⟨-, ⟨e0, e1⟩, -⟩ := idx0 t
  unfold iblk0
  rw [View.read_apply]
  show V c main_v9 _ = _
  rw [hS]
  congr 1
  funext a
  apply Fin.ext
  match a with
  | ⟨0, _⟩ => show win0_1.index t (0 : Fin 2) * 2000 + 1 * r.val = R.val; rw [e0, hR]; omega
  | ⟨1, _⟩ => show win0_1.index t (1 : Fin 2) * 128 + 1 * k.val = k.val; rw [e1]; omega

/-- The first relation's degree column. -/
theorem blk0_2 (c : Dev nD) (D : FVec Ideal S50000x1 .f32) (hD : V c main_v14 = D) (t : Fin cfg0.N)
    (r : Fin 2000) (u : Fin 1) (R : Fin 50000) (hR : R.val = 2000 * t.val + r.val) :
    (iblk0 V c 2 t : Vec Ideal S2000x1 .f32) (ix2 r u) = D (ix2 R u) := by
  obtain ⟨-, -, ⟨e0, e1⟩, -⟩ := idx0 t
  unfold iblk0
  rw [View.read_apply]
  show V c main_v14 _ = _
  rw [hD]
  congr 1
  funext a
  apply Fin.ext
  match a with
  | ⟨0, _⟩ => show win0_2.index t (0 : Fin 2) * 2000 + 1 * r.val = R.val; rw [e0, hR]; omega
  | ⟨1, _⟩ => show win0_2.index t (1 : Fin 2) * 1 + 1 * u.val = u.val; rw [e1]; omega

/-- The second relation's neighbour sums. -/
theorem blk0_3 (c : Dev nD) (S : FVec Ideal S50000x128 .f32) (hS : V c main_v24 = S) (t : Fin cfg0.N)
    (r : Fin 2000) (k : Fin 128) (R : Fin 50000) (hR : R.val = 2000 * t.val + r.val) :
    (iblk0 V c 3 t : Vec Ideal S2000x128 .f32) (ix2 r k) = S (ix2 R k) := by
  obtain ⟨-, -, -, ⟨e0, e1⟩, -⟩ := idx0 t
  unfold iblk0
  rw [View.read_apply]
  show V c main_v24 _ = _
  rw [hS]
  congr 1
  funext a
  apply Fin.ext
  match a with
  | ⟨0, _⟩ => show win0_3.index t (0 : Fin 2) * 2000 + 1 * r.val = R.val; rw [e0, hR]; omega
  | ⟨1, _⟩ => show win0_3.index t (1 : Fin 2) * 128 + 1 * k.val = k.val; rw [e1]; omega

/-- The second relation's degree column. -/
theorem blk0_4 (c : Dev nD) (D : FVec Ideal S50000x1 .f32) (hD : V c main_v29 = D) (t : Fin cfg0.N)
    (r : Fin 2000) (u : Fin 1) (R : Fin 50000) (hR : R.val = 2000 * t.val + r.val) :
    (iblk0 V c 4 t : Vec Ideal S2000x1 .f32) (ix2 r u) = D (ix2 R u) := by
  obtain ⟨-, -, -, -, ⟨e0, e1⟩, -⟩ := idx0 t
  unfold iblk0
  rw [View.read_apply]
  show V c main_v29 _ = _
  rw [hD]
  congr 1
  funext a
  apply Fin.ext
  match a with
  | ⟨0, _⟩ => show win0_4.index t (0 : Fin 2) * 2000 + 1 * r.val = R.val; rw [e0, hR]; omega
  | ⟨1, _⟩ => show win0_4.index t (1 : Fin 2) * 1 + 1 * u.val = u.val; rw [e1]; omega

/-! ## The weight and bias blocks are their whole arrays, at every point -/

theorem blk0_5 (c : Dev nD) (W : FVec Ideal S128x128 .f32) (hW : V c main_arg9 = W) (t : Fin cfg0.N) :
    (iblk0 V c 5 t : Vec Ideal S128x128 .f32) = W := by
  obtain ⟨-, -, -, -, -, ⟨e0, e1⟩, -⟩ := idx0 t
  funext j
  unfold iblk0
  rw [View.read_apply]
  show V c main_arg9 _ = _
  rw [hW]
  congr 1
  funext a
  apply Fin.ext
  match a with
  | ⟨0, _⟩ => show win0_5.index t (0 : Fin 2) * 128 + 1 * (j 0).val = (j 0).val; rw [e0]; omega
  | ⟨1, _⟩ => show win0_5.index t (1 : Fin 2) * 128 + 1 * (j 1).val = (j 1).val; rw [e1]; omega

theorem blk0_6 (c : Dev nD) (W : FVec Ideal S128x128 .f32) (hW : V c main_arg10 = W) (t : Fin cfg0.N) :
    (iblk0 V c 6 t : Vec Ideal S128x128 .f32) = W := by
  obtain ⟨-, -, -, -, -, -, ⟨e0, e1⟩, -⟩ := idx0 t
  funext j
  unfold iblk0
  rw [View.read_apply]
  show V c main_arg10 _ = _
  rw [hW]
  congr 1
  funext a
  apply Fin.ext
  match a with
  | ⟨0, _⟩ => show win0_6.index t (0 : Fin 2) * 128 + 1 * (j 0).val = (j 0).val; rw [e0]; omega
  | ⟨1, _⟩ => show win0_6.index t (1 : Fin 2) * 128 + 1 * (j 1).val = (j 1).val; rw [e1]; omega

theorem blk0_7 (c : Dev nD) (b : FVec Ideal S128 .f32) (hb : V c main_arg11 = b) (t : Fin cfg0.N) :
    (iblk0 V c 7 t : Vec Ideal S128 .f32) = b := by
  obtain ⟨-, -, -, -, -, -, -, e0, -⟩ := idx0 t
  funext j
  unfold iblk0
  rw [View.read_apply]
  show V c main_arg11 _ = _
  rw [hb]
  congr 1
  funext a
  apply Fin.ext
  match a with
  | ⟨0, _⟩ => show win0_7.index t (0 : Fin 1) * 128 + 1 * (j 0).val = (j 0).val; rw [e0]; omega

theorem blk0_8 (c : Dev nD) (W : FVec Ideal S128x128 .f32) (hW : V c main_arg12 = W) (t : Fin cfg0.N) :
    (iblk0 V c 8 t : Vec Ideal S128x128 .f32) = W := by
  obtain ⟨-, -, -, -, -, -, -, -, ⟨e0, e1⟩, -⟩ := idx0 t
  funext j
  unfold iblk0
  rw [View.read_apply]
  show V c main_arg12 _ = _
  rw [hW]
  congr 1
  funext a
  apply Fin.ext
  match a with
  | ⟨0, _⟩ => show win0_8.index t (0 : Fin 2) * 128 + 1 * (j 0).val = (j 0).val; rw [e0]; omega
  | ⟨1, _⟩ => show win0_8.index t (1 : Fin 2) * 128 + 1 * (j 1).val = (j 1).val; rw [e1]; omega

theorem blk0_9 (c : Dev nD) (W : FVec Ideal S128x128 .f32) (hW : V c main_arg13 = W) (t : Fin cfg0.N) :
    (iblk0 V c 9 t : Vec Ideal S128x128 .f32) = W := by
  obtain ⟨-, -, -, -, -, -, -, -, -, ⟨e0, e1⟩, -⟩ := idx0 t
  funext j
  unfold iblk0
  rw [View.read_apply]
  show V c main_arg13 _ = _
  rw [hW]
  congr 1
  funext a
  apply Fin.ext
  match a with
  | ⟨0, _⟩ => show win0_9.index t (0 : Fin 2) * 128 + 1 * (j 0).val = (j 0).val; rw [e0]; omega
  | ⟨1, _⟩ => show win0_9.index t (1 : Fin 2) * 128 + 1 * (j 1).val = (j 1).val; rw [e1]; omega

theorem blk0_10 (c : Dev nD) (b : FVec Ideal S128 .f32) (hb : V c main_arg14 = b) (t : Fin cfg0.N) :
    (iblk0 V c 10 t : Vec Ideal S128 .f32) = b := by
  obtain ⟨-, -, -, -, -, -, -, -, -, -, e0, -⟩ := idx0 t
  funext j
  unfold iblk0
  rw [View.read_apply]
  show V c main_arg14 _ = _
  rw [hb]
  congr 1
  funext a
  apply Fin.ext
  match a with
  | ⟨0, _⟩ => show win0_10.index t (0 : Fin 1) * 128 + 1 * (j 0).val = (j 0).val; rw [e0]; omega

/-! ## What a grid point writes, and the whole array -/

/-- The output block's entry (r, q) at point t is the array's entry (2000 t + r, q). -/
theorem out_emb0 (t : Fin cfg0.N) (r : Fin 2000) (q : Fin 128) (p : Fin 50000) (hp : p.val = 2000 * t.val + r.val) :
    ((cfg0.win 11).blk t).view.emb (ix2 r q) = ix2 p q := by
  obtain ⟨-, -, -, -, -, -, -, -, -, -, -, ⟨e0, e1⟩⟩ := idx0 t
  funext a
  apply Fin.ext
  match a with
  | ⟨0, _⟩ => show win0_11.index t (0 : Fin 2) * 2000 + 1 * r.val = p.val; rw [e0, hp]; omega
  | ⟨1, _⟩ => show win0_11.index t (1 : Fin 2) * 128 + 1 * q.val = q.val; rw [e1]; omega

/-- The first layer's output as one function of the arrays it reads: at every index the layer's entry at that row
    and column, then the maximum with zero. -/
def layer0 (X : FVec Ideal S100000x128 .f32) (S0 : FVec Ideal S50000x128 .f32) (D0 : FVec Ideal S50000x1 .f32)
    (S1 : FVec Ideal S50000x128 .f32) (D1 : FVec Ideal S50000x1 .f32) (Ws0 Wn0 : FVec Ideal S128x128 .f32)
    (b0 : FVec Ideal S128 .f32) (Ws1 Wn1 : FVec Ideal S128x128 .f32) (b1 : FVec Ideal S128 .f32) : S50000x128.Idx → EReal :=
  fun i => max (Cert.Sage.layerAt 50000 100000 (by decide) X S0 S1 (fun r => D0 (ix2 r (0 : Fin 1))) (fun r => D1 (ix2 r (0 : Fin 1)))
    Ws0 Wn0 b0 Ws1 Wn1 b1 (i 0) (i 1)) Cert.Sage.zero

section Region
variable (c : Dev nD)
  (X : FVec Ideal S100000x128 .f32) (S0 : FVec Ideal S50000x128 .f32) (D0 : FVec Ideal S50000x1 .f32)
  (S1 : FVec Ideal S50000x128 .f32) (D1 : FVec Ideal S50000x1 .f32)
  (Ws0 Wn0 : FVec Ideal S128x128 .f32) (b0 : FVec Ideal S128 .f32) (Ws1 Wn1 : FVec Ideal S128x128 .f32) (b1 : FVec Ideal S128 .f32)
  (hX : V c main_arg0 = X) (hS0 : V c main_v9 = S0) (hD0 : V c main_v14 = D0) (hS1 : V c main_v24 = S1) (hD1 : V c main_v29 = D1)
  (hWs0 : V c main_arg9 = Ws0) (hWn0 : V c main_arg10 = Wn0) (hb0 : V c main_arg11 = b0)
  (hWs1 : V c main_arg12 = Ws1) (hWn1 : V c main_arg13 = Wn1) (hb1 : V c main_arg14 = b1)

include hX hS0 hD0 hS1 hD1 hWs0 hWn0 hb0 hWs1 hWn1 hb1

/-- What point t stores at (r, q) of its block is the layer's entry at row 2000 t + r and column q. -/
theorem point0 (t : Fin cfg0.N) (r : Fin 2000) (q : Fin 128) (p : Fin 50000) (hp : p.val = 2000 * t.val + r.val) :
    k0_pay1 (k0_pay2 (iblk0 V c 0 t)) (k0_pay3 (iblk0 V c 4 t) (iblk0 V c 3 t)) (k0_pay4 (iblk0 V c 8 t)) (k0_pay5 (iblk0 V c 9 t))
        (iblk0 V c 10 t) (k0_pay6 (iblk0 V c 0 t) (iblk0 V c 2 t) (iblk0 V c 1 t) (iblk0 V c 5 t) (iblk0 V c 6 t)) (k0_pay7 (iblk0 V c 7 t)) (ix2 r q)
      = layer0 X S0 D0 S1 D1 Ws0 Wn0 b0 Ws1 Wn1 b1 (ix2 p q) := by
  refine (stored0 (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) r q).trans ?_
  have hp' : p.val < 100000 := lt_of_lt_of_le p.isLt (by decide)
  have e0 : (fun k : Fin 128 => (iblk0 V c 0 t : Vec Ideal S2000x128 .f32) (ix2 r k)) = fun k => X (ix2 (⟨p.val, hp'⟩ : Fin 100000) k) :=
    funext fun k => blk0_0 V c X hX t r k ⟨p.val, hp'⟩ hp
  have e1 : (fun k : Fin 128 => (iblk0 V c 1 t : Vec Ideal S2000x128 .f32) (ix2 r k)) = fun k => S0 (ix2 p k) :=
    funext fun k => blk0_1 V c S0 hS0 t r k p hp
  have e3 : (fun k : Fin 128 => (iblk0 V c 3 t : Vec Ideal S2000x128 .f32) (ix2 r k)) = fun k => S1 (ix2 p k) :=
    funext fun k => blk0_3 V c S1 hS1 t r k p hp
  have e2 : (iblk0 V c 2 t : Vec Ideal S2000x1 .f32) (ix2 r (0 : Fin 1)) = D0 (ix2 p (0 : Fin 1)) := blk0_2 V c D0 hD0 t r 0 p hp
  have e4 : (iblk0 V c 4 t : Vec Ideal S2000x1 .f32) (ix2 r (0 : Fin 1)) = D1 (ix2 p (0 : Fin 1)) := blk0_4 V c D1 hD1 t r 0 p hp
  rw [e0, e1, e3, e2, e4, blk0_5 V c Ws0 hWs0 t, blk0_6 V c Wn0 hWn0 t, blk0_7 V c b0 hb0 t, blk0_8 V c Ws1 hWs1 t,
    blk0_9 V c Wn1 hWn1 t, blk0_10 V c b1 hb1 t]
  rfl

/-- What point t writes back is block t of the layer's output. -/
theorem flushed0 (t : Fin cfg0.N) :
    (dat0 V c).flushed 11 t = ((cfg0.win 11).blk t).view.read (Elt Ideal) (layer0 X S0 D0 S1 D1 Ws0 Wn0 b0 Ws1 Wn1 b1) := by
  show (cfg0.win 11).cut (grid0.coords t) ((dat0 V c).after 11 t) = _
  rw [after0_11]
  unfold out0_11
  rw [View.canon_unit_zero zero_off2]
  simp only [View.ld_unit_zero (S := S2000x128) zero_off2, View.ld_unit_zero (S := S2000x1) zero_off2,
    View.ld_unit_zero (S := S128x128) zero_off2, View.ld_unit_zero (S := S128) zero_off1]
  funext j
  obtain ⟨r, q, rfl⟩ : ∃ (r : Fin 2000) (q : Fin 128), j = ix2 r q := ⟨j 0, j 1, eq_ix2 j⟩
  have hN : cfg0.N = 25 := N_0
  have ht : t.val < 25 := hN ▸ t.isLt
  have hr : r.val < 2000 := r.isLt
  show _ = layer0 X S0 D0 S1 D1 Ws0 Wn0 b0 Ws1 Wn1 b1 (((cfg0.win 11).blk t).view.emb (ix2 r q))
  rw [out_emb0 t r q ⟨2000 * t.val + r.val, by omega⟩ rfl]
  exact point0 V c X S0 D0 S1 D1 Ws0 Wn0 b0 Ws1 Wn1 b1 hX hS0 hD0 hS1 hD1 hWs0 hWn0 hb0 hWs1 hWn1 hb1 t r q ⟨2000 * t.val + r.val, by omega⟩ rfl

end Region

/-- An index of the output array is in point t's block iff each coordinate is in the block's range on its axis. -/
theorem mem_out0 (t : Fin cfg0.N) (i : S50000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v30).slice (win0_11.rect t)).set ↔ _
  rw [View.set_slice_whole, Rect.mem_set_unit]
  exact Iff.rfl

/-- The 25 blocks tile the output: row i lies in the block of point i / 2000, which is written back. -/
theorem cover0 (i : S50000x128.Idx) : ∃ t : Fin cfg0.N, (cfg0.win 11).flush t = true ∧ i ∈ ((cfg0.win 11).blk t).view.set := by
  have hN : cfg0.N = 25 := N_0
  have hi0 : (i 0).val < 50000 := (i 0).isLt
  have hi1 : (i 1).val < 128 := (i 1).isLt
  let t : Fin cfg0.N := ⟨(i 0).val / 2000, by rw [hN]; omega⟩
  obtain ⟨-, -, -, -, -, -, -, -, -, -, -, ⟨e0, e1⟩⟩ := idx0 t
  have e0' : win0_11.index t (0 : Fin 2) = (i 0).val / 2000 := e0
  refine ⟨t, flush0_11 t, ?_⟩
  rw [mem_out0]
  intro a
  match a with
  | ⟨0, _⟩ => show win0_11.index t (0 : Fin 2) * 2000 ≤ (i 0).val ∧ (i 0).val < win0_11.index t (0 : Fin 2) * 2000 + 2000; omega
  | ⟨1, _⟩ => show win0_11.index t (1 : Fin 2) * 128 ≤ (i 1).val ∧ (i 1).val < win0_11.index t (1 : Fin 2) * 128 + 128; omega

/-- THE FIRST LAYER'S ARRAY after the call: at (p, q), the layer's entry of the arrays the call read, then the maximum
    with zero — whatever the buffers held when the call was entered. -/
theorem region0_entry (c : Dev nD)
    (X : FVec Ideal S100000x128 .f32) (S0 : FVec Ideal S50000x128 .f32) (D0 : FVec Ideal S50000x1 .f32) (S1 : FVec Ideal S50000x128 .f32) (D1 : FVec Ideal S50000x1 .f32)
    (Ws0 Wn0 : FVec Ideal S128x128 .f32) (b0 : FVec Ideal S128 .f32) (Ws1 Wn1 : FVec Ideal S128x128 .f32) (b1 : FVec Ideal S128 .f32)
    (hX : V c main_arg0 = X) (hS0 : V c main_v9 = S0) (hD0 : V c main_v14 = D0) (hS1 : V c main_v24 = S1) (hD1 : V c main_v29 = D1)
    (hWs0 : V c main_arg9 = Ws0) (hWn0 : V c main_arg10 = Wn0) (hb0 : V c main_arg11 = b0) (hWs1 : V c main_arg12 = Ws1) (hWn1 : V c main_arg13 = Wn1) (hb1 : V c main_arg14 = b1)
    (p : Fin 50000) (q : Fin 128) :
    (Gen.dat0 (F := Ideal) V c).arrAt 11 cfg0.N (ix2 p q)
      = max (Cert.Sage.layerAt 50000 100000 (by decide) X S0 S1 (fun r => D0 (ix2 r (0 : Fin 1))) (fun r => D1 (ix2 r (0 : Fin 1))) Ws0 Wn0 b0 Ws1 Wn1 b1 p q) Cert.Sage.zero :=
  congrFun ((dat0 V c).arrAt_eq_of_cover 11 (layer0 X S0 D0 S1 D1 Ws0 Wn0 b0 Ws1 Wn1 b1)
    (fun t _ => flushed0 V c X S0 D0 S1 D1 Ws0 Wn0 b0 Ws1 Wn1 b1 hX hS0 hD0 hS1 hD1 hWs0 hWn0 hb0 hWs1 hWn1 hb1 t) cover0) (ix2 p q)

end Cert.KernelIdeal.Hand

end
-- ==== Proof.KernelLayer2.lean ====
/-
  The second layer's array, entry by entry.

  The second call walks 10 grid points. Point t reads rows 2000 t .. 2000 t + 1999 of the first layer's output (of
  whose 50000 rows only the first 20000 are visited), of the two relations' neighbour sums and of their degree
  columns, reads the six weight and bias arrays whole, and writes rows 2000 t .. 2000 t + 1999 of the 20000 x 128
  output. What it writes at row r and column q of its block is the layer's entry, the six terms added left to right;
  this layer takes no maximum with zero. The 10 blocks tile the output, so the output array holds, at every (p, q),
  that entry at row p. All of this for any contents of the buffers when the call is entered; the arrays the call
  reads are named by hypotheses.
-/
import proofs.«139477_j81217831568087_2_alg».proof.Proof.Gen.KernelIdeal.Frame
import proofs.«139477_j81217831568087_2_alg».proof.Proof.KernelBlockOps

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! ## The stored value at an entry of a block -/

/-- The feature block, recast to its own shape and narrowed, is itself at every entry. -/
theorem feat_block1 (x : Vec Ideal S2000x128 .f32) (r : Fin 2000) (k : Fin 128) : k1_pay2 x (ix2 r k) = x (ix2 r k) := by
  unfold k1_pay2
  rw [truncf_apply, shapeCast_self]

/-- The second relation's mean block at (r, k). -/
theorem mean1_block1 (d : Vec Ideal S2000x1 .f32) (s : Vec Ideal S2000x128 .f32) (r : Fin 2000) (k : Fin 128) :
    k1_pay3 d s (ix2 r k) = Cert.Sage.mean (fun k => s (ix2 r k)) (d (ix2 r (0 : Fin 1))) k := by
  unfold k1_pay3
  exact block_mean_apply s d r k

/-- The first relation's two products, added, at (r, q). -/
theorem rel0_block1 (x : Vec Ideal S2000x128 .f32) (d : Vec Ideal S2000x1 .f32) (s : Vec Ideal S2000x128 .f32)
    (Ws Wn : Vec Ideal S128x128 .f32) (r : Fin 2000) (q : Fin 128) :
    k1_pay6 x d s Ws Wn (ix2 r q)
      = Cert.Sage.lin (fun k => x (ix2 r k)) (fun k j => Ws (ix2 k j)) q
        + Cert.Sage.lin (Cert.Sage.mean (fun k => s (ix2 r k)) (d (ix2 r (0 : Fin 1)))) (fun k j => Wn (ix2 k j)) q := by
  unfold k1_pay6
  show matmul dot_S2000x128_S128x128_S2000x128_1_0_0_1_n_n none _ _ _ (ix2 r q) + matmul dot_S2000x128_S128x128_S2000x128_1_0_0_1_n_n none _ _ _ (ix2 r q) = _
  rw [block_matmul_apply, block_matmul_apply]
  unfold Cert.Sage.lin
  refine congrArg₂ (· + ·) ?_ ?_
  · exact Finset.sum_congr rfl fun k _ => congrArg (· * _) (feat_block1 x r k)
  · exact Finset.sum_congr rfl fun k _ => congrArg (· * _) (block_mean_apply s d r k)

/-- The stored value at (r, q) of a block: the six terms added left to right. -/
theorem stored1 (x0 x1 : Vec Ideal S2000x128 .f32) (x2 : Vec Ideal S2000x1 .f32) (x3 : Vec Ideal S2000x128 .f32)
    (x4 : Vec Ideal S2000x1 .f32) (x5 x6 : Vec Ideal S128x128 .f32) (x7 : Vec Ideal S128 .f32)
    (x8 x9 : Vec Ideal S128x128 .f32) (x10 : Vec Ideal S128 .f32) (r : Fin 2000) (q : Fin 128) :
    k1_pay1 (k1_pay2 x0) (k1_pay3 x4 x3) (k1_pay4 x8) (k1_pay5 x9) x10 (k1_pay6 x0 x2 x1 x5 x6) (k1_pay7 x7) (ix2 r q)
      = Cert.Sage.entrySeq (fun k => x0 (ix2 r k)) (fun k => x1 (ix2 r k)) (fun k => x3 (ix2 r k))
          (x2 (ix2 r (0 : Fin 1))) (x4 (ix2 r (0 : Fin 1)))
          (fun k j => x5 (ix2 k j)) (fun k j => x6 (ix2 k j)) (fun j => x7 (ix1 j))
          (fun k j => x8 (ix2 k j)) (fun k j => x9 (ix2 k j)) (fun j => x10 (ix1 j)) q := by
  unfold k1_pay1 k1_pay7
  show ((((k1_pay6 x0 x2 x1 x5 x6 (ix2 r q) + broadcastTo S2000x128 (shapeCast S1x128 x7 shapeCasts_S128_S1x128) broadcasts_S1x128_S2000x128 (ix2 r q))
          + matmul dot_S2000x128_S128x128_S2000x128_1_0_0_1_n_n none (k1_pay2 x0) (k1_pay4 x8) (constant (F := Ideal) S2000x128 .f32 0x00000000#32) (ix2 r q))
          + matmul dot_S2000x128_S128x128_S2000x128_1_0_0_1_n_n none (k1_pay3 x4 x3) (k1_pay5 x9) (constant (F := Ideal) S2000x128 .f32 0x00000000#32) (ix2 r q))
          + broadcastTo S2000x128 (shapeCast S1x128 x10 shapeCasts_S128_S1x128) broadcasts_S1x128_S2000x128 (ix2 r q)) = _
  rw [rel0_block1, block_matmul_apply, block_matmul_apply, block_bias_apply, block_bias_apply]
  unfold Cert.Sage.entrySeq Cert.Sage.lin
  refine congrArg₂ (· + ·) (congrArg₂ (· + ·) (congrArg₂ (· + ·) rfl ?_) ?_) rfl
  · exact Finset.sum_congr rfl fun k _ => congrArg (· * _) (feat_block1 x0 r k)
  · exact Finset.sum_congr rfl fun k _ => congrArg (· * _) (mean1_block1 x4 x3 r k)

variable (V : (c : Dev nD) → (b : Ref sig .tc) → Buf (Elt Ideal) ((c : Thread nD τ).loc b))

/-! ## Where each window's block sits: grid point t takes block row t of the row-blocked arrays and the one block of the
    weights and biases -/

theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ win1_7.index t (0 : Fin 1) = 0
    ∧ (win1_8.index t (0 : Fin 2) = 0 ∧ win1_8.index t (1 : Fin 2) = 0)
    ∧ (win1_9.index t (0 : Fin 2) = 0 ∧ win1_9.index t (1 : Fin 2) = 0)
    ∧ win1_10.index t (0 : Fin 1) = 0
    ∧ (win1_11.index t (0 : Fin 2) = t.val ∧ win1_11.index t (1 : Fin 2) = 0) :=
  (by decide +kernel : ∀ t : Fin grid1.N, _)

/-! ## The input blocks as rows of their arrays -/

/-- Row r of the feature block at point t is row 2000 t + r of the first layer's output. -/
theorem blk1_0 (c : Dev nD) (X : FVec Ideal S50000x128 .f32) (hX : V c main_v30 = X) (t : Fin cfg1.N)
    (r : Fin 2000) (k : Fin 128) (R : Fin 50000) (hR : R.val = 2000 * t.val + r.val) :
    (iblk1 V c 0 t : Vec Ideal S2000x128 .f32) (ix2 r k) = X (ix2 R k) := by
  obtain ⟨⟨e0, e1⟩, -⟩ := idx1 t
  unfold iblk1
  rw [View.read_apply]
  show V c main_v30 _ = _
  rw [hX]
  congr 1
  funext a
  apply Fin.ext
  match a with
  | ⟨0, _⟩ => show win1_0.index t (0 : Fin 2) * 2000 + 1 * r.val = R.val; rw [e0, hR]; omega
  | ⟨1, _⟩ => show win1_0.index t (1 : Fin 2) * 128 + 1 * k.val = k.val; rw [e1]; omega

/-- The same for the first relation's neighbour sums. -/
theorem blk1_1 (c : Dev nD) (S : FVec Ideal S20000x128 .f32) (hS : V c main_v40 = S) (t : Fin cfg1.N)
    (r : Fin 2000) (k : Fin 128) (R : Fin 20000) (hR : R.val = 2000 * t.val + r.val) :
    (iblk1 V c 1 t : Vec Ideal S2000x128 .f32) (ix2 r k) = S (ix2 R k) := by
  obtain ⟨-, ⟨e0, e1⟩, -⟩ := idx1 t
  unfold iblk1
  rw [View.read_apply]
  show V c main_v40 _ = _
  rw [hS]
  congr 1
  funext a
  apply Fin.ext
  match a with
  | ⟨0, _⟩ => show win1_1.index t (0 : Fin 2) * 2000 + 1 * r.val = R.val; rw [e0, hR]; omega
  | ⟨1, _⟩ => show win1_1.index t (1 : Fin 2) * 128 + 1 * k.val = k.val; rw [e1]; omega

/-- The first relation's degree column. -/
theorem blk1_2 (c : Dev nD) (D : FVec Ideal S20000x1 .f32) (hD : V c main_v45 = D) (t : Fin cfg1.N)
    (r : Fin 2000) (u : Fin 1) (R : Fin 20000) (hR : R.val = 2000 * t.val + r.val) :
    (iblk1 V c 2 t : Vec Ideal S2000x1 .f32) (ix2 r u) = D (ix2 R u) := by
  obtain ⟨-, -, ⟨e0, e1⟩, -⟩ := idx1 t
  unfold iblk1
  rw [View.read_apply]
  show V c main_v45 _ = _
  rw [hD]
  congr 1
  funext a
  apply Fin.ext
  match a with
  | ⟨0, _⟩ => show win1_2.index t (0 : Fin 2) * 2000 + 1 * r.val = R.val; rw [e0, hR]; omega
  | ⟨1, _⟩ => show win1_2.index t (1 : Fin 2) * 1 + 1 * u.val = u.val; rw [e1]; omega

/-- The second relation's neighbour sums. -/
theorem blk1_3 (c : Dev nD) (S : FVec Ideal S20000x128 .f32) (hS : V c main_v55 = S) (t : Fin cfg1.N)
    (r : Fin 2000) (k : Fin 128) (R : Fin 20000) (hR : R.val = 2000 * t.val + r.val) :
    (iblk1 V c 3 t : Vec Ideal S2000x128 .f32) (ix2 r k) = S (ix2 R k) := by
  obtain ⟨-, -, -, ⟨e0, e1⟩, -⟩ := idx1 t
  unfold iblk1
  rw [View.read_apply]
  show V c main_v55 _ = _
  rw [hS]
  congr 1
  funext a
  apply Fin.ext
  match a with
  | ⟨0, _⟩ => show win1_3.index t (0 : Fin 2) * 2000 + 1 * r.val = R.val; rw [e0, hR]; omega
  | ⟨1, _⟩ => show win1_3.index t (1 : Fin 2) * 128 + 1 * k.val = k.val; rw [e1]; omega

/-- The second relation's degree column. -/
theorem blk1_4 (c : Dev nD) (D : FVec Ideal S20000x1 .f32) (hD : V c main_v60 = D) (t : Fin cfg1.N)
    (r : Fin 2000) (u : Fin 1) (R : Fin 20000) (hR : R.val = 2000 * t.val + r.val) :
    (iblk1 V c 4 t : Vec Ideal S2000x1 .f32) (ix2 r u) = D (ix2 R u) := by
  obtain ⟨-, -, -, -, ⟨e0, e1⟩, -⟩ := idx1 t
  unfold iblk1
  rw [View.read_apply]
  show V c main_v60 _ = _
  rw [hD]
  congr 1
  funext a
  apply Fin.ext
  match a with
  | ⟨0, _⟩ => show win1_4.index t (0 : Fin 2) * 2000 + 1 * r.val = R.val; rw [e0, hR]; omega
  | ⟨1, _⟩ => show win1_4.index t (1 : Fin 2) * 1 + 1 * u.val = u.val; rw [e1]; omega

/-! ## The weight and bias blocks are their whole arrays, at every point -/

theorem blk1_5 (c : Dev nD) (W : FVec Ideal S128x128 .f32) (hW : V c main_arg15 = W) (t : Fin cfg1.N) :
    (iblk1 V c 5 t : Vec Ideal S128x128 .f32) = W := by
  obtain ⟨-, -, -, -, -, ⟨e0, e1⟩, -⟩ := idx1 t
  funext j
  unfold iblk1
  rw [View.read_apply]
  show V c main_arg15 _ = _
  rw [hW]
  congr 1
  funext a
  apply Fin.ext
  match a with
  | ⟨0, _⟩ => show win1_5.index t (0 : Fin 2) * 128 + 1 * (j 0).val = (j 0).val; rw [e0]; omega
  | ⟨1, _⟩ => show win1_5.index t (1 : Fin 2) * 128 + 1 * (j 1).val = (j 1).val; rw [e1]; omega

theorem blk1_6 (c : Dev nD) (W : FVec Ideal S128x128 .f32) (hW : V c main_arg16 = W) (t : Fin cfg1.N) :
    (iblk1 V c 6 t : Vec Ideal S128x128 .f32) = W := by
  obtain ⟨-, -, -, -, -, -, ⟨e0, e1⟩, -⟩ := idx1 t
  funext j
  unfold iblk1
  rw [View.read_apply]
  show V c main_arg16 _ = _
  rw [hW]
  congr 1
  funext a
  apply Fin.ext
  match a with
  | ⟨0, _⟩ => show win1_6.index t (0 : Fin 2) * 128 + 1 * (j 0).val = (j 0).val; rw [e0]; omega
  | ⟨1, _⟩ => show win1_6.index t (1 : Fin 2) * 128 + 1 * (j 1).val = (j 1).val; rw [e1]; omega

theorem blk1_7 (c : Dev nD) (b : FVec Ideal S128 .f32) (hb : V c main_arg17 = b) (t : Fin cfg1.N) :
    (iblk1 V c 7 t : Vec Ideal S128 .f32) = b := by
  obtain ⟨-, -, -, -, -, -, -, e0, -⟩ := idx1 t
  funext j
  unfold iblk1
  rw [View.read_apply]
  show V c main_arg17 _ = _
  rw [hb]
  congr 1
  funext a
  apply Fin.ext
  match a with
  | ⟨0, _⟩ => show win1_7.index t (0 : Fin 1) * 128 + 1 * (j 0).val = (j 0).val; rw [e0]; omega

theorem blk1_8 (c : Dev nD) (W : FVec Ideal S128x128 .f32) (hW : V c main_arg18 = W) (t : Fin cfg1.N) :
    (iblk1 V c 8 t : Vec Ideal S128x128 .f32) = W := by
  obtain ⟨-, -, -, -, -, -, -, -, ⟨e0, e1⟩, -⟩ := idx1 t
  funext j
  unfold iblk1
  rw [View.read_apply]
  show V c main_arg18 _ = _
  rw [hW]
  congr 1
  funext a
  apply Fin.ext
  match a with
  | ⟨0, _⟩ => show win1_8.index t (0 : Fin 2) * 128 + 1 * (j 0).val = (j 0).val; rw [e0]; omega
  | ⟨1, _⟩ => show win1_8.index t (1 : Fin 2) * 128 + 1 * (j 1).val = (j 1).val; rw [e1]; omega

theorem blk1_9 (c : Dev nD) (W : FVec Ideal S128x128 .f32) (hW : V c main_arg19 = W) (t : Fin cfg1.N) :
    (iblk1 V c 9 t : Vec Ideal S128x128 .f32) = W := by
  obtain ⟨-, -, -, -, -, -, -, -, -, ⟨e0, e1⟩, -⟩ := idx1 t
  funext j
  unfold iblk1
  rw [View.read_apply]
  show V c main_arg19 _ = _
  rw [hW]
  congr 1
  funext a
  apply Fin.ext
  match a with
  | ⟨0, _⟩ => show win1_9.index t (0 : Fin 2) * 128 + 1 * (j 0).val = (j 0).val; rw [e0]; omega
  | ⟨1, _⟩ => show win1_9.index t (1 : Fin 2) * 128 + 1 * (j 1).val = (j 1).val; rw [e1]; omega

theorem blk1_10 (c : Dev nD) (b : FVec Ideal S128 .f32) (hb : V c main_arg20 = b) (t : Fin cfg1.N) :
    (iblk1 V c 10 t : Vec Ideal S128 .f32) = b := by
  obtain ⟨-, -, -, -, -, -, -, -, -, -, e0, -⟩ := idx1 t
  funext j
  unfold iblk1
  rw [View.read_apply]
  show V c main_arg20 _ = _
  rw [hb]
  congr 1
  funext a
  apply Fin.ext
  match a with
  | ⟨0, _⟩ => show win1_10.index t (0 : Fin 1) * 128 + 1 * (j 0).val = (j 0).val; rw [e0]; omega

/-! ## What a grid point writes, and the whole array -/

/-- The output block's entry (r, q) at point t is the array's entry (2000 t + r, q). -/
theorem out_emb1 (t : Fin cfg1.N) (r : Fin 2000) (q : Fin 128) (p : Fin 20000) (hp : p.val = 2000 * t.val + r.val) :
    ((cfg1.win 11).blk t).view.emb (ix2 r q) = ix2 p q := by
  obtain ⟨-, -, -, -, -, -, -, -, -, -, -, ⟨e0, e1⟩⟩ := idx1 t
  funext a
  apply Fin.ext
  match a with
  | ⟨0, _⟩ => show win1_11.index t (0 : Fin 2) * 2000 + 1 * r.val = p.val; rw [e0, hp]; omega
  | ⟨1, _⟩ => show win1_11.index t (1 : Fin 2) * 128 + 1 * q.val = q.val; rw [e1]; omega

/-- The second layer's output as one function of the arrays it reads: at every index the layer's entry at that row
    and column. -/
def layer1 (X : FVec Ideal S50000x128 .f32) (S0 : FVec Ideal S20000x128 .f32) (D0 : FVec Ideal S20000x1 .f32)
    (S1 : FVec Ideal S20000x128 .f32) (D1 : FVec Ideal S20000x1 .f32) (Ws0 Wn0 : FVec Ideal S128x128 .f32)
    (b0 : FVec Ideal S128 .f32) (Ws1 Wn1 : FVec Ideal S128x128 .f32) (b1 : FVec Ideal S128 .f32) : S20000x128.Idx → EReal :=
  fun i => Cert.Sage.layerAt 20000 50000 (by decide) X S0 S1 (fun r => D0 (ix2 r (0 : Fin 1))) (fun r => D1 (ix2 r (0 : Fin 1)))
    Ws0 Wn0 b0 Ws1 Wn1 b1 (i 0) (i 1)

section Region
variable (c : Dev nD)
  (X : FVec Ideal S50000x128 .f32) (S0 : FVec Ideal S20000x128 .f32) (D0 : FVec Ideal S20000x1 .f32)
  (S1 : FVec Ideal S20000x128 .f32) (D1 : FVec Ideal S20000x1 .f32)
  (Ws0 Wn0 : FVec Ideal S128x128 .f32) (b0 : FVec Ideal S128 .f32) (Ws1 Wn1 : FVec Ideal S128x128 .f32) (b1 : FVec Ideal S128 .f32)
  (hX : V c main_v30 = X) (hS0 : V c main_v40 = S0) (hD0 : V c main_v45 = D0) (hS1 : V c main_v55 = S1) (hD1 : V c main_v60 = D1)
  (hWs0 : V c main_arg15 = Ws0) (hWn0 : V c main_arg16 = Wn0) (hb0 : V c main_arg17 = b0)
  (hWs1 : V c main_arg18 = Ws1) (hWn1 : V c main_arg19 = Wn1) (hb1 : V c main_arg20 = b1)

include hX hS0 hD0 hS1 hD1 hWs0 hWn0 hb0 hWs1 hWn1 hb1

/-- What point t stores at (r, q) of its block is the layer's entry at row 2000 t + r and column q. -/
theorem point1 (t : Fin cfg1.N) (r : Fin 2000) (q : Fin 128) (p : Fin 20000) (hp : p.val = 2000 * t.val + r.val) :
    k1_pay1 (k1_pay2 (iblk1 V c 0 t)) (k1_pay3 (iblk1 V c 4 t) (iblk1 V c 3 t)) (k1_pay4 (iblk1 V c 8 t)) (k1_pay5 (iblk1 V c 9 t))
        (iblk1 V c 10 t) (k1_pay6 (iblk1 V c 0 t) (iblk1 V c 2 t) (iblk1 V c 1 t) (iblk1 V c 5 t) (iblk1 V c 6 t)) (k1_pay7 (iblk1 V c 7 t)) (ix2 r q)
      = layer1 X S0 D0 S1 D1 Ws0 Wn0 b0 Ws1 Wn1 b1 (ix2 p q) := by
  refine (stored1 (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) r q).trans ?_
  have hp' : p.val < 50000 := lt_of_lt_of_le p.isLt (by decide)
  have e0 : (fun k : Fin 128 => (iblk1 V c 0 t : Vec Ideal S2000x128 .f32) (ix2 r k)) = fun k => X (ix2 (⟨p.val, hp'⟩ : Fin 50000) k) :=
    funext fun k => blk1_0 V c X hX t r k ⟨p.val, hp'⟩ hp
  have e1 : (fun k : Fin 128 => (iblk1 V c 1 t : Vec Ideal S2000x128 .f32) (ix2 r k)) = fun k => S0 (ix2 p k) :=
    funext fun k => blk1_1 V c S0 hS0 t r k p hp
  have e3 : (fun k : Fin 128 => (iblk1 V c 3 t : Vec Ideal S2000x128 .f32) (ix2 r k)) = fun k => S1 (ix2 p k) :=
    funext fun k => blk1_3 V c S1 hS1 t r k p hp
  have e2 : (iblk1 V c 2 t : Vec Ideal S2000x1 .f32) (ix2 r (0 : Fin 1)) = D0 (ix2 p (0 : Fin 1)) := blk1_2 V c D0 hD0 t r 0 p hp
  have e4 : (iblk1 V c 4 t : Vec Ideal S2000x1 .f32) (ix2 r (0 : Fin 1)) = D1 (ix2 p (0 : Fin 1)) := blk1_4 V c D1 hD1 t r 0 p hp
  rw [e0, e1, e3, e2, e4, blk1_5 V c Ws0 hWs0 t, blk1_6 V c Wn0 hWn0 t, blk1_7 V c b0 hb0 t, blk1_8 V c Ws1 hWs1 t,
    blk1_9 V c Wn1 hWn1 t, blk1_10 V c b1 hb1 t]
  rfl

/-- What point t writes back is block t of the layer's output. -/
theorem flushed1 (t : Fin cfg1.N) :
    (dat1 V c).flushed 11 t = ((cfg1.win 11).blk t).view.read (Elt Ideal) (layer1 X S0 D0 S1 D1 Ws0 Wn0 b0 Ws1 Wn1 b1) := by
  show (cfg1.win 11).cut (grid1.coords t) ((dat1 V c).after 11 t) = _
  rw [after1_11]
  unfold out1_11
  rw [View.canon_unit_zero zero_off2]
  simp only [View.ld_unit_zero (S := S2000x128) zero_off2, View.ld_unit_zero (S := S2000x1) zero_off2,
    View.ld_unit_zero (S := S128x128) zero_off2, View.ld_unit_zero (S := S128) zero_off1]
  funext j
  obtain ⟨r, q, rfl⟩ : ∃ (r : Fin 2000) (q : Fin 128), j = ix2 r q := ⟨j 0, j 1, eq_ix2 j⟩
  have hN : cfg1.N = 10 := N_1
  have ht : t.val < 10 := hN ▸ t.isLt
  have hr : r.val < 2000 := r.isLt
  show _ = layer1 X S0 D0 S1 D1 Ws0 Wn0 b0 Ws1 Wn1 b1 (((cfg1.win 11).blk t).view.emb (ix2 r q))
  rw [out_emb1 t r q ⟨2000 * t.val + r.val, by omega⟩ rfl]
  exact point1 V c X S0 D0 S1 D1 Ws0 Wn0 b0 Ws1 Wn1 b1 hX hS0 hD0 hS1 hD1 hWs0 hWn0 hb0 hWs1 hWn1 hb1 t r q ⟨2000 * t.val + r.val, by omega⟩ rfl

end Region

/-- An index of the output array is in point t's block iff each coordinate is in the block's range on its axis. -/
theorem mem_out1 (t : Fin cfg1.N) (i : S20000x128.Idx) :
    i ∈ ((cfg1.win 11).blk t).view.set ↔ ∀ a : Fin 2, win1_11.index t a * S2000x128.size a ≤ (i a).val ∧ (i a).val < win1_11.index t a * S2000x128.size a + S2000x128.size a := by
  show i ∈ ((View.whole main_v61).slice (win1_11.rect t)).set ↔ _
  rw [View.set_slice_whole, Rect.mem_set_unit]
  exact Iff.rfl

/-- The 10 blocks tile the output: row i lies in the block of point i / 2000, which is written back. -/
theorem cover1 (i : S20000x128.Idx) : ∃ t : Fin cfg1.N, (cfg1.win 11).flush t = true ∧ i ∈ ((cfg1.win 11).blk t).view.set := by
  have hN : cfg1.N = 10 := N_1
  have hi0 : (i 0).val < 20000 := (i 0).isLt
  have hi1 : (i 1).val < 128 := (i 1).isLt
  let t : Fin cfg1.N := ⟨(i 0).val / 2000, by rw [hN]; omega⟩
  obtain ⟨-, -, -, -, -, -, -, -, -, -, -, ⟨e0, e1⟩⟩ := idx1 t
  have e0' : win1_11.index t (0 : Fin 2) = (i 0).val / 2000 := e0
  refine ⟨t, flush1_11 t, ?_⟩
  rw [mem_out1]
  intro a
  match a with
  | ⟨0, _⟩ => show win1_11.index t (0 : Fin 2) * 2000 ≤ (i 0).val ∧ (i 0).val < win1_11.index t (0 : Fin 2) * 2000 + 2000; omega
  | ⟨1, _⟩ => show win1_11.index t (1 : Fin 2) * 128 ≤ (i 1).val ∧ (i 1).val < win1_11.index t (1 : Fin 2) * 128 + 128; omega

/-- THE SECOND LAYER'S ARRAY after the call: at (p, q), the layer's entry of the arrays the call read — whatever the
    buffers held when the call was entered. -/
theorem region1_entry (c : Dev nD)
    (X : FVec Ideal S50000x128 .f32) (S0 : FVec Ideal S20000x128 .f32) (D0 : FVec Ideal S20000x1 .f32) (S1 : FVec Ideal S20000x128 .f32) (D1 : FVec Ideal S20000x1 .f32)
    (Ws0 Wn0 : FVec Ideal S128x128 .f32) (b0 : FVec Ideal S128 .f32) (Ws1 Wn1 : FVec Ideal S128x128 .f32) (b1 : FVec Ideal S128 .f32)
    (hX : V c main_v30 = X) (hS0 : V c main_v40 = S0) (hD0 : V c main_v45 = D0) (hS1 : V c main_v55 = S1) (hD1 : V c main_v60 = D1)
    (hWs0 : V c main_arg15 = Ws0) (hWn0 : V c main_arg16 = Wn0) (hb0 : V c main_arg17 = b0) (hWs1 : V c main_arg18 = Ws1) (hWn1 : V c main_arg19 = Wn1) (hb1 : V c main_arg20 = b1)
    (p : Fin 20000) (q : Fin 128) :
    (Gen.dat1 (F := Ideal) V c).arrAt 11 cfg1.N (ix2 p q)
      = Cert.Sage.layerAt 20000 50000 (by decide) X S0 S1 (fun r => D0 (ix2 r (0 : Fin 1))) (fun r => D1 (ix2 r (0 : Fin 1))) Ws0 Wn0 b0 Ws1 Wn1 b1 p q :=
  congrFun ((dat1 V c).arrAt_eq_of_cover 11 (layer1 X S0 D0 S1 D1 Ws0 Wn0 b0 Ws1 Wn1 b1)
    (fun t _ => flushed1 V c X S0 D0 S1 D1 Ws0 Wn0 b0 Ws1 Wn1 b1 hX hS0 hD0 hS1 hD1 hWs0 hWn0 hb0 hWs1 hWn1 hb1 t) cover1) (ix2 p q)

end Cert.KernelIdeal.Hand

end
-- ==== Proof.ReferenceLayers.lean ====
/-
  The reference program's two layers, read entry by entry.

  Each layer of the reference is, relation by relation, the destination rows times a weight matrix, plus the
  neighbour sums divided by the degrees (a degree below one counted as one) times a second weight matrix, plus a bias
  row; the two relations are then added, and layer 1 is followed by a maximum with zero. The neighbour sums and the
  degrees are kept as whole arrays and are never opened. Entry (p, q) of each layer's result is shown to be the
  specification's entry, relation by relation, of those arrays: the layout operations only move an entry to another
  index, so what is left to check is that each composed index function, at coordinates, is the index the
  specification reads.
-/
import proofs.«139477_j81217831568087_2_alg».proof.Proof.Gen.ReferenceIdeal.Read
import proofs.«139477_j81217831568087_2_alg».proof.Proof.SageEntry

noncomputable section

namespace Cert.ReferenceIdeal.Hand

open Cert.ReferenceIdeal Cert.ReferenceIdeal.Gen Cert.ReferenceIdeal.Read Idealize.ShloMosaic Idealize.ShloMosaic.ValueIdx

/-! ## Layer 1: the index functions at coordinates

  Rows [0, 50000) of the 100000 feature rows are the destination rows; a product's left index at output (p, q) and
  summation index k is (p, k) and its right index (k, q); a degree is spread along a row and a bias along a column. -/

theorem idx_v0 (p : Fin 50000) (k : Fin 128) :
    idx_main_v0 (ix2 p k) = ix2 (⟨p.val, lt_of_lt_of_le p.isLt (by decide)⟩ : Fin 100000) k :=
  funext fun a => Fin.ext (by match a with | ⟨0, _⟩ => rfl | ⟨1, _⟩ => rfl)

theorem lidx_v20 (p : Fin 50000) (q k : Fin 128) :
    lidx_main_v20 (ix2 p q) k = ix2 p k :=
  funext fun a => Fin.ext (by match a with | ⟨0, _⟩ => rfl | ⟨1, _⟩ => rfl)

theorem ridx_v20 (p : Fin 50000) (q k : Fin 128) :
    ridx_main_v20 (ix2 p q) k = ix2 k q :=
  funext fun a => Fin.ext (by match a with | ⟨0, _⟩ => rfl | ⟨1, _⟩ => rfl)

theorem lidx_v21 (p : Fin 50000) (q k : Fin 128) :
    lidx_main_v21 (ix2 p q) k = ix2 p k :=
  funext fun a => Fin.ext (by match a with | ⟨0, _⟩ => rfl | ⟨1, _⟩ => rfl)

theorem ridx_v21 (p : Fin 50000) (q k : Fin 128) :
    ridx_main_v21 (ix2 p q) k = ix2 k q :=
  funext fun a => Fin.ext (by match a with | ⟨0, _⟩ => rfl | ⟨1, _⟩ => rfl)

theorem idx_v17_v18 (p : Fin 50000) (k : Fin 128) :
    idx_main_v17 (idx_main_v18 (ix2 p k)) = ix1 p :=
  funext fun a => Fin.ext (by match a with | ⟨0, _⟩ => rfl)

theorem idx_v23_v24 (p : Fin 50000) (q : Fin 128) :
    idx_main_v23 (idx_main_v24 (ix2 p q)) = ix1 q :=
  funext fun a => Fin.ext (by match a with | ⟨0, _⟩ => rfl)

theorem lidx_v45 (p : Fin 50000) (q k : Fin 128) :
    lidx_main_v45 (ix2 p q) k = ix2 p k :=
  funext fun a => Fin.ext (by match a with | ⟨0, _⟩ => rfl | ⟨1, _⟩ => rfl)

theorem ridx_v45 (p : Fin 50000) (q k : Fin 128) :
    ridx_main_v45 (ix2 p q) k = ix2 k q :=
  funext fun a => Fin.ext (by match a with | ⟨0, _⟩ => rfl | ⟨1, _⟩ => rfl)

theorem lidx_v46 (p : Fin 50000) (q k : Fin 128) :
    lidx_main_v46 (ix2 p q) k = ix2 p k :=
  funext fun a => Fin.ext (by match a with | ⟨0, _⟩ => rfl | ⟨1, _⟩ => rfl)

theorem ridx_v46 (p : Fin 50000) (q k : Fin 128) :
    ridx_main_v46 (ix2 p q) k = ix2 k q :=
  funext fun a => Fin.ext (by match a with | ⟨0, _⟩ => rfl | ⟨1, _⟩ => rfl)

theorem idx_v42_v43 (p : Fin 50000) (k : Fin 128) :
    idx_main_v42 (idx_main_v43 (ix2 p k)) = ix1 p :=
  funext fun a => Fin.ext (by match a with | ⟨0, _⟩ => rfl)

theorem idx_v48_v49 (p : Fin 50000) (q : Fin 128) :
    idx_main_v48 (idx_main_v49 (ix2 p q)) = ix1 q :=
  funext fun a => Fin.ext (by match a with | ⟨0, _⟩ => rfl)

/-- Entry (p, q) of layer 1's result: the maximum with zero of the specification's entry, relation by relation, of the
    feature rows, the two relations' neighbour sums and degrees, and the layer's weights and biases. -/
theorem layer1_entry (x0 : (⟨S100000x128, .f32⟩ : BufTy).Contents (Elt Ideal))
    (x1 x2 x3 x4 : (⟨S600000, .i32⟩ : BufTy).Contents (Elt Ideal))
    (x9 x10 : (⟨S128x128, .f32⟩ : BufTy).Contents (Elt Ideal)) (x11 : (⟨S128, .f32⟩ : BufTy).Contents (Elt Ideal))
    (x12 x13 : (⟨S128x128, .f32⟩ : BufTy).Contents (Elt Ideal)) (x14 : (⟨S128, .f32⟩ : BufTy).Contents (Elt Ideal))
    (p : Fin 50000) (q : Fin 128) :
    Read.val_main_v52 (F := Ideal) x0 x1 x2 x3 x4 x9 x10 x11 x12 x13 x14 (ix2 p q)
      = max (Cert.Sage.layerAtRel 50000 100000 (by decide) x0 (Read.val_main_v10 (F := Ideal) x0 x1 x2) (Read.val_main_v35 (F := Ideal) x0 x3 x4)
          (fun r => Read.val_main_v14 (F := Ideal) x2 (ix1 r)) (fun r => Read.val_main_v39 (F := Ideal) x4 (ix1 r)) x9 x10 x11 x12 x13 x14 p q) Cert.Sage.zero := by
  simp only [val_main_v52_apply, val_main_v51_apply, val_main_call0_v0_apply, val_main_call0_cst_apply,
    val_main_v25_apply, val_main_v22_apply, val_main_v20_apply, val_main_v21_apply, val_main_v19_apply, val_main_v18_apply,
    val_main_v17_apply, val_main_v16_apply, val_main_v15_apply, val_main_cst_3_apply, val_main_v24_apply, val_main_v23_apply,
    val_main_v50_apply, val_main_v47_apply, val_main_v45_apply, val_main_v46_apply, val_main_v44_apply, val_main_v43_apply,
    val_main_v42_apply, val_main_v41_apply, val_main_v40_apply, val_main_cst_9_apply, val_main_v49_apply, val_main_v48_apply,
    val_main_v0_apply,
    lidx_v20, ridx_v20, lidx_v21, ridx_v21, idx_v17_v18, idx_v23_v24,
    lidx_v45, ridx_v45, lidx_v46, ridx_v46, idx_v42_v43, idx_v48_v49, idx_v0,
    Ideal.addf_def, Ideal.maximumf_def, Ideal.hostDivf_def, Ideal.ofBits_def]
  generalize val_main_v10 (F := Ideal) x0 x1 x2 = S0
  generalize val_main_v35 (F := Ideal) x0 x3 x4 = S1
  generalize val_main_v14 (F := Ideal) x2 = D0
  generalize val_main_v39 (F := Ideal) x4 = D1
  unfold Cert.Sage.layerAtRel Cert.Sage.entryRel Cert.Sage.lin Cert.Sage.mean
  rfl

/-! ## Layer 2: the index functions at coordinates

  Rows [0, 20000) of layer 1's 50000 result rows are the destination rows; the rest is as in layer 1. -/

theorem idx_v53 (p : Fin 20000) (k : Fin 128) :
    idx_main_v53 (ix2 p k) = ix2 (⟨p.val, lt_of_lt_of_le p.isLt (by decide)⟩ : Fin 50000) k :=
  funext fun a => Fin.ext (by match a with | ⟨0, _⟩ => rfl | ⟨1, _⟩ => rfl)

theorem lidx_v73 (p : Fin 20000) (q k : Fin 128) :
    lidx_main_v73 (ix2 p q) k = ix2 p k :=
  funext fun a => Fin.ext (by match a with | ⟨0, _⟩ => rfl | ⟨1, _⟩ => rfl)

theorem ridx_v73 (p : Fin 20000) (q k : Fin 128) :
    ridx_main_v73 (ix2 p q) k = ix2 k q :=
  funext fun a => Fin.ext (by match a with | ⟨0, _⟩ => rfl | ⟨1, _⟩ => rfl)

theorem lidx_v74 (p : Fin 20000) (q k : Fin 128) :
    lidx_main_v74 (ix2 p q) k = ix2 p k :=
  funext fun a => Fin.ext (by match a with | ⟨0, _⟩ => rfl | ⟨1, _⟩ => rfl)

theorem ridx_v74 (p : Fin 20000) (q k : Fin 128) :
    ridx_main_v74 (ix2 p q) k = ix2 k q :=
  funext fun a => Fin.ext (by match a with | ⟨0, _⟩ => rfl | ⟨1, _⟩ => rfl)

theorem idx_v70_v71 (p : Fin 20000) (k : Fin 128) :
    idx_main_v70 (idx_main_v71 (ix2 p k)) = ix1 p :=
  funext fun a => Fin.ext (by match a with | ⟨0, _⟩ => rfl)

theorem idx_v76_v77 (p : Fin 20000) (q : Fin 128) :
    idx_main_v76 (idx_main_v77 (ix2 p q)) = ix1 q :=
  funext fun a => Fin.ext (by match a with | ⟨0, _⟩ => rfl)

theorem lidx_v98 (p : Fin 20000) (q k : Fin 128) :
    lidx_main_v98 (ix2 p q) k = ix2 p k :=
  funext fun a => Fin.ext (by match a with | ⟨0, _⟩ => rfl | ⟨1, _⟩ => rfl)

theorem ridx_v98 (p : Fin 20000) (q k : Fin 128) :
    ridx_main_v98 (ix2 p q) k = ix2 k q :=
  funext fun a => Fin.ext (by match a with | ⟨0, _⟩ => rfl | ⟨1, _⟩ => rfl)

theorem lidx_v99 (p : Fin 20000) (q k : Fin 128) :
    lidx_main_v99 (ix2 p q) k = ix2 p k :=
  funext fun a => Fin.ext (by match a with | ⟨0, _⟩ => rfl | ⟨1, _⟩ => rfl)

theorem ridx_v99 (p : Fin 20000) (q k : Fin 128) :
    ridx_main_v99 (ix2 p q) k = ix2 k q :=
  funext fun a => Fin.ext (by match a with | ⟨0, _⟩ => rfl | ⟨1, _⟩ => rfl)

theorem idx_v95_v96 (p : Fin 20000) (k : Fin 128) :
    idx_main_v95 (idx_main_v96 (ix2 p k)) = ix1 p :=
  funext fun a => Fin.ext (by match a with | ⟨0, _⟩ => rfl)

theorem idx_v101_v102 (p : Fin 20000) (q : Fin 128) :
    idx_main_v101 (idx_main_v102 (ix2 p q)) = ix1 q :=
  funext fun a => Fin.ext (by match a with | ⟨0, _⟩ => rfl)

/-- Entry (p, q) of the result: the specification's entry, relation by relation, of layer 1's result (kept whole), the
    two relations' neighbour sums and degrees, and layer 2's weights and biases. -/
theorem layer2_entry (x0 : (⟨S100000x128, .f32⟩ : BufTy).Contents (Elt Ideal))
    (x1 x2 x3 x4 : (⟨S600000, .i32⟩ : BufTy).Contents (Elt Ideal)) (x5 x6 x7 x8 : (⟨S300000, .i32⟩ : BufTy).Contents (Elt Ideal))
    (x9 x10 : (⟨S128x128, .f32⟩ : BufTy).Contents (Elt Ideal)) (x11 : (⟨S128, .f32⟩ : BufTy).Contents (Elt Ideal))
    (x12 x13 : (⟨S128x128, .f32⟩ : BufTy).Contents (Elt Ideal)) (x14 : (⟨S128, .f32⟩ : BufTy).Contents (Elt Ideal))
    (x15 x16 : (⟨S128x128, .f32⟩ : BufTy).Contents (Elt Ideal)) (x17 : (⟨S128, .f32⟩ : BufTy).Contents (Elt Ideal))
    (x18 x19 : (⟨S128x128, .f32⟩ : BufTy).Contents (Elt Ideal)) (x20 : (⟨S128, .f32⟩ : BufTy).Contents (Elt Ideal))
    (p : Fin 20000) (q : Fin 128) :
    Read.val_main_v104 (F := Ideal) x0 x1 x2 x3 x4 x5 x6 x7 x8 x9 x10 x11 x12 x13 x14 x15 x16 x17 x18 x19 x20 (ix2 p q)
      = Cert.Sage.layerAtRel 20000 50000 (by decide) (Read.val_main_v52 (F := Ideal) x0 x1 x2 x3 x4 x9 x10 x11 x12 x13 x14)
          (Read.val_main_v63 (F := Ideal) x0 x1 x2 x3 x4 x5 x6 x9 x10 x11 x12 x13 x14) (Read.val_main_v88 (F := Ideal) x0 x1 x2 x3 x4 x7 x8 x9 x10 x11 x12 x13 x14)
          (fun r => Read.val_main_v67 (F := Ideal) x6 (ix1 r)) (fun r => Read.val_main_v92 (F := Ideal) x8 (ix1 r)) x15 x16 x17 x18 x19 x20 p q := by
  simp only [val_main_v104_apply,
    val_main_v78_apply, val_main_v75_apply, val_main_v73_apply, val_main_v74_apply, val_main_v72_apply, val_main_v71_apply,
    val_main_v70_apply, val_main_v69_apply, val_main_v68_apply, val_main_cst_15_apply, val_main_v77_apply, val_main_v76_apply,
    val_main_v103_apply, val_main_v100_apply, val_main_v98_apply, val_main_v99_apply, val_main_v97_apply, val_main_v96_apply,
    val_main_v95_apply, val_main_v94_apply, val_main_v93_apply, val_main_cst_21_apply, val_main_v102_apply, val_main_v101_apply,
    val_main_v53_apply,
    lidx_v73, ridx_v73, lidx_v74, ridx_v74, idx_v70_v71, idx_v76_v77,
    lidx_v98, ridx_v98, lidx_v99, ridx_v99, idx_v95_v96, idx_v101_v102, idx_v53,
    Ideal.addf_def, Ideal.maximumf_def, Ideal.hostDivf_def, Ideal.ofBits_def]
  generalize val_main_v52 (F := Ideal) x0 x1 x2 x3 x4 x9 x10 x11 x12 x13 x14 = X
  generalize val_main_v63 (F := Ideal) x0 x1 x2 x3 x4 x5 x6 x9 x10 x11 x12 x13 x14 = S0
  generalize val_main_v88 (F := Ideal) x0 x1 x2 x3 x4 x7 x8 x9 x10 x11 x12 x13 x14 = S1
  generalize val_main_v67 (F := Ideal) x6 = D0
  generalize val_main_v92 (F := Ideal) x8 = D1
  unfold Cert.Sage.layerAtRel Cert.Sage.entryRel Cert.Sage.lin Cert.Sage.mean
  rfl

end Cert.ReferenceIdeal.Hand

end
-- ==== Proof.KernelValue.lean ====
/-
  What the kernel's result buffer holds after every run: the reference's result stage of the launch contents.

  The first grid reads the node features, and for each of the two edge relations the neighbour sums and the degrees
  that the host operations before it computed; what it writes back, entry by entry, is the relu of the layer's entry
  with its six terms added left to right. The reference computes the same entry relation by relation, so the first
  grid's output array is the reference's first-layer stage. The host operations between the grids gather and add that
  array exactly as the reference does its own first layer's output, so the second grid reads the reference's second
  layer operands, and its output array is the reference's result stage. Degrees travel as a column on the kernel's
  side and as a vector on the reference's: the column's entry (r, 0) is the vector's entry r.
-/
import proofs.«139477_j81217831568087_2_alg».proof.Proof.Gen.KernelIdeal.Frame
import proofs.«139477_j81217831568087_2_alg».proof.Proof.Gen.ReferenceIdeal.Read
import proofs.«139477_j81217831568087_2_alg».proof.Proof.SageEntry
import proofs.«139477_j81217831568087_2_alg».proof.Proof.KernelRun
import proofs.«139477_j81217831568087_2_alg».proof.Proof.HostStretches
import proofs.«139477_j81217831568087_2_alg».proof.Proof.LibColumns
import proofs.«139477_j81217831568087_2_alg».proof.Proof.KernelLayer1
import proofs.«139477_j81217831568087_2_alg».proof.Proof.KernelLayer2
import proofs.«139477_j81217831568087_2_alg».proof.Proof.ReferenceLayers

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The first layer's output array, as the first grid's write-backs leave it, is the reference's first-layer stage of
    the launch contents: entry by entry both are the relu of the layer's entry, the kernel adding its six terms left to
    right and the reference relation by relation. -/
theorem layer1_array : (dat0 (F := Ideal) (V1 m ρ) c).arrAt 11 cfg0.N
    = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  funext i
  obtain ⟨p, q, rfl⟩ : ∃ (p : Fin 50000) (q : Fin 128), i = ix2 p q := ⟨i 0, i 1, eq_ix2 i⟩
  rw [region0_entry (V1 m ρ) c _ _ _ _ _ _ _ _ _ _ _
    (stretch0_arg0 (W0 m ρ c)) (stretch0_sum0 (W0 m ρ c)) (stretch0_deg0 (W0 m ρ c)) (stretch0_sum1 (W0 m ρ c)) (stretch0_deg1 (W0 m ρ c))
    (stretch0_arg9 (W0 m ρ c)) (stretch0_arg10 (W0 m ρ c)) (stretch0_arg11 (W0 m ρ c)) (stretch0_arg12 (W0 m ρ c)) (stretch0_arg13 (W0 m ρ c)) (stretch0_arg14 (W0 m ρ c)) p q,
    Cert.ReferenceIdeal.Hand.layer1_entry, Cert.Sage.layerAt_eq_layerAtRel]
  simp only [Cert.Columns.shapeCast_a_a1_apply]

end Cert.KernelIdeal.Hand

namespace Cert.KernelIdeal.Hand

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## The edge lists of the second layer at the first grid's exit are the launch contents

  Neither grid reads them and no host operation writes them, so the contents after the last segment, which are the
  launch contents, are also the contents at the first grid's exit. -/

theorem W2_arg5 : W2 m ρ c (Proc.devRef .tc main_arg5) = m ((c : Thread nD τ).loc main_arg5) :=
  (stretch1_arg5 (W2 m ρ c)).symm.trans ((W4_of_ne m ρ c main_arg5 (by decide)).symm.trans (W4_main_arg5 m ρ c))
theorem W2_arg6 : W2 m ρ c (Proc.devRef .tc main_arg6) = m ((c : Thread nD τ).loc main_arg6) :=
  (stretch1_arg6 (W2 m ρ c)).symm.trans ((W4_of_ne m ρ c main_arg6 (by decide)).symm.trans (W4_main_arg6 m ρ c))
theorem W2_arg7 : W2 m ρ c (Proc.devRef .tc main_arg7) = m ((c : Thread nD τ).loc main_arg7) :=
  (stretch1_arg7 (W2 m ρ c)).symm.trans ((W4_of_ne m ρ c main_arg7 (by decide)).symm.trans (W4_main_arg7 m ρ c))
theorem W2_arg8 : W2 m ρ c (Proc.devRef .tc main_arg8) = m ((c : Thread nD τ).loc main_arg8) :=
  (stretch1_arg8 (W2 m ρ c)).symm.trans ((W4_of_ne m ρ c main_arg8 (by decide)).symm.trans (W4_main_arg8 m ρ c))

/-! ## The second grid's weights and biases at its entry are the launch contents

  They are input arrays of the second grid: what it leaves in them is what it found. -/

theorem V3_arg15 : V3 m ρ c main_arg15 = m ((c : Thread nD τ).loc main_arg15) :=
  ((W4_arr m ρ c 5).trans (((dat1 (V3 m ρ) c).arrAt_in 5 rfl _).trans (A_eq1 (V3 m ρ) c 5))).symm.trans (W4_main_arg15 m ρ c)
theorem V3_arg16 : V3 m ρ c main_arg16 = m ((c : Thread nD τ).loc main_arg16) :=
  ((W4_arr m ρ c 6).trans (((dat1 (V3 m ρ) c).arrAt_in 6 rfl _).trans (A_eq1 (V3 m ρ) c 6))).symm.trans (W4_main_arg16 m ρ c)
theorem V3_arg17 : V3 m ρ c main_arg17 = m ((c : Thread nD τ).loc main_arg17) :=
  ((W4_arr m ρ c 7).trans (((dat1 (V3 m ρ) c).arrAt_in 7 rfl _).trans (A_eq1 (V3 m ρ) c 7))).symm.trans (W4_main_arg17 m ρ c)
theorem V3_arg18 : V3 m ρ c main_arg18 = m ((c : Thread nD τ).loc main_arg18) :=
  ((W4_arr m ρ c 8).trans (((dat1 (V3 m ρ) c).arrAt_in 8 rfl _).trans (A_eq1 (V3 m ρ) c 8))).symm.trans (W4_main_arg18 m ρ c)
theorem V3_arg19 : V3 m ρ c main_arg19 = m ((c : Thread nD τ).loc main_arg19) :=
  ((W4_arr m ρ c 9).trans (((dat1 (V3 m ρ) c).arrAt_in 9 rfl _).trans (A_eq1 (V3 m ρ) c 9))).symm.trans (W4_main_arg19 m ρ c)
theorem V3_arg20 : V3 m ρ c main_arg20 = m ((c : Thread nD τ).loc main_arg20) :=
  ((W4_arr m ρ c 10).trans (((dat1 (V3 m ρ) c).arrAt_in 10 rfl _).trans (A_eq1 (V3 m ρ) c 10))).symm.trans (W4_main_arg20 m ρ c)

/-- At the first grid's exit its output buffer holds the reference's first-layer stage of the launch contents. -/
theorem W2_layer1_ref : W2 m ρ c (Proc.devRef .tc main_v30) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (W2_layer1 m ρ c).trans (layer1_array m ρ c)

/-- The second grid finds the first layer's output in its first operand. -/
theorem V3_layer1 : V3 m ρ c main_v30 = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (stretch1_layer1 (W2 m ρ c)).trans (W2_layer1_ref m ρ c)

/-- Its neighbour sums of relation 0 are the reference's. -/
theorem V3_sum0 : V3 m ρ c main_v40 = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (stretch1_sum0 (W2 m ρ c)).trans ?_
  rw [W2_layer1_ref m ρ c, W2_arg5 m ρ c, W2_arg6 m ρ c]
  exact (ref_sums2a _ _ _ _ _ _ _ _ _ _ _ _ _).symm

/-- Its degrees of relation 0 are the reference's, as a column. -/
theorem V3_deg0 : V3 m ρ c main_v45 = shapeCast S20000x1 (Cert.ReferenceIdeal.Read.val_main_v67 (F := Ideal) (m ((c : Thread nD τ).loc main_arg6))) shapeCasts_S20000_S20000x1 := by
  refine (stretch1_deg0 (W2 m ρ c)).trans ?_
  rw [W2_arg6 m ρ c]

/-- Relation 1's neighbour sums. -/
theorem V3_sum1 : V3 m ρ c main_v55 = Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (stretch1_sum1 (W2 m ρ c)).trans ?_
  rw [W2_layer1_ref m ρ c, W2_arg7 m ρ c, W2_arg8 m ρ c]
  exact (ref_sums2b _ _ _ _ _ _ _ _ _ _ _ _ _).symm

/-- Relation 1's degrees. -/
theorem V3_deg1 : V3 m ρ c main_v60 = shapeCast S20000x1 (Cert.ReferenceIdeal.Read.val_main_v92 (F := Ideal) (m ((c : Thread nD τ).loc main_arg8))) shapeCasts_S20000_S20000x1 := by
  refine (stretch1_deg1 (W2 m ρ c)).trans ?_
  rw [W2_arg8 m ρ c]

/-- The second grid's output array, as its write-backs leave it, is the reference's result stage of the launch
    contents: its features are the first layer's output, its neighbour sums and degrees the same host operations of
    that output and of the edge lists, and entry by entry the two programs differ only in the grouping of six terms. -/
theorem layer2_array : (dat1 (F := Ideal) (V3 m ρ) c).arrAt 11 cfg1.N
    = Cert.ReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  funext i
  obtain ⟨p, q, rfl⟩ : ∃ (p : Fin 20000) (q : Fin 128), i = ix2 p q := ⟨i 0, i 1, eq_ix2 i⟩
  rw [region1_entry (V3 m ρ) c _ _ _ _ _ _ _ _ _ _ _ (V3_layer1 m ρ c) (V3_sum0 m ρ c) (V3_deg0 m ρ c) (V3_sum1 m ρ c) (V3_deg1 m ρ c)
    (V3_arg15 m ρ c) (V3_arg16 m ρ c) (V3_arg17 m ρ c) (V3_arg18 m ρ c) (V3_arg19 m ρ c) (V3_arg20 m ρ c) p q,
    Cert.ReferenceIdeal.Hand.layer2_entry, Cert.Sage.layerAt_eq_layerAtRel]
  simp only [Cert.Columns.shapeCast_a_a1_apply]

/-- The result buffer after every weakly fair execution: the reference's result stage of the launch contents. -/
theorem kernel_result : W4 m ρ c (Proc.devRef .tc main_v61) = Cert.ReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  (W4_result m ρ c).trans (layer2_array m ρ c)

end Cert.KernelIdeal.Hand

end
-- ==== Proof.lean ====
/-
  The certificate: a two-layer mean-aggregation graph layer as a kernel of two grids against its plain reference.

  Both programs gather neighbour rows and add them per destination node with the same host operations; the kernel
  then computes each layer's dense part (two matrix products per relation, the mean by the degree, the biases, and
  a relu after the first layer) in a grid over blocks of 2000 rows, where the reference computes it on whole
  arrays. At the extended reals a change of float format is the identity and a matrix product is a plain sum, so
  entry by entry the two sides differ only in how six terms are grouped; addition is associative, also at the
  infinities, so no finiteness is used and the precondition is never opened. The ideal pass rewrote nothing.
-/
import proofs.«139477_j81217831568087_2_alg».proof.Defs
import proofs.«139477_j81217831568087_2_alg».proof.Proof.Gen.Kernel
import proofs.«139477_j81217831568087_2_alg».proof.Proof.Gen.Kernel.Frame
import proofs.«139477_j81217831568087_2_alg».proof.Proof.Gen.KernelIdeal
import proofs.«139477_j81217831568087_2_alg».proof.Proof.Gen.KernelIdeal.Frame
import proofs.«139477_j81217831568087_2_alg».proof.Proof.Gen.ReferenceIdeal
import proofs.«139477_j81217831568087_2_alg».proof.Proof.Gen.Pre_finite_inputs
import proofs.«139477_j81217831568087_2_alg».proof.Proof.Gen.ReferenceIdeal.Run
import proofs.«139477_j81217831568087_2_alg».proof.Proof.Gen.ReferenceIdeal.Read
import proofs.«139477_j81217831568087_2_alg».proof.Proof.KernelRun
import proofs.«139477_j81217831568087_2_alg».proof.Proof.KernelValue

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the result array at the reference's result stage of the arguments: the kernel
    by its two grids read entry by entry, the reference by its own run; the arguments agree. -/
theorem algebraic : Cert.algebraic_KernelIdeal_ReferenceIdeal := by
  intro m ρ m' ρ' _ hagree
  refine ⟨fun c => Cert.ReferenceIdeal.Read.val_main_v104 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run Cert.KernelIdeal.defs _ _).mono
      (fun _ h c => ⟨(h c).1.trans (Cert.KernelIdeal.Hand.kernel_result m ρ c), (h c).2⟩)
      (Cert.KernelIdeal.Hand.run_named m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20⟩ := hagree c
    rw [Cert.ReferenceIdeal.Read.val_main_v104_eq]
    simp only [h0, h1, h2, h3, h4, h5, h6, h7, h8, h9, h10, h11, h12, h13, h14, h15, h16, h17, h18, h19, h20]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
